-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x64 : Shape := ⟨2, ![1, 64]⟩
abbrev S100000x16 : Shape := ⟨2, ![100000, 16]⟩
abbrev S2000x16 : Shape := ⟨2, ![2000, 16]⟩
abbrev S1600000x16 : Shape := ⟨2, ![1600000, 16]⟩
abbrev S1x16 : Shape := ⟨2, ![1, 16]⟩

abbrev nBuf : Space → Nat
  | .hbm => 63
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64, .f32⟩
  | .hbm, ⟨46, _⟩ => ⟨S100000x16, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x16, .f32⟩
  | .hbm, ⟨56, _⟩ => ⟨S_, .f32⟩
  | .hbm, ⟨57, _⟩ => ⟨S100000x16, .f32⟩
  | .hbm, ⟨58, _⟩ => ⟨S1600000x1, .i32⟩
  | .hbm, ⟨59, _⟩ => ⟨S100000x16, .f32⟩
  | .hbm, ⟨60, _⟩ => ⟨S1x16, .f32⟩
  | .hbm, ⟨61, _⟩ => ⟨S1x16, .f32⟩
  | .hbm, ⟨62, _⟩ => ⟨S16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S64x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S2000x1, .f32⟩
  | .local _ .vmem, ⟨20, _⟩ => ⟨S2000x1, .f32⟩
  | .local _ .vmem, ⟨21, _⟩ => ⟨S1x16, .f32⟩
  | .local _ .vmem, ⟨22, _⟩ => ⟨S1x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S2000x16_S2000x16 : S2000x16.ShapeCasts S2000x16
  broadcasts_S2000x1_S2000x16 : S2000x1.Broadcasts S2000x16
  shapeCasts_S1x16_S1x16 : S1x16.ShapeCasts S1x16
  broadcasts_S1x16_S2000x16 : S1x16.Broadcasts S2000x16
  reduces_S2000x16_S16 : S2000x16.Reduces [0] S16
  shapeCasts_S1x16_S16 : S1x16.ShapeCasts S16
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x16_S2000x16_1_0_0_1_n_n_wf : DotDims.WF S2000x64 S64x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .f32 = 32 ∨ (Rect.block (s := S64x16) S64x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S100000x16.size a
  hwx1_5 : ∀ i : grid1.Coords, EltTy.bits .f32 = 32 ∨ (Rect.block (s := S100000x16) S2000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x16.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x16, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x16, .f32⟩
  | .hbm, ⟨68, _⟩ => ⟨S_, .f32⟩
  | .hbm, ⟨69, _⟩ => ⟨S100000x16, .f32⟩
  | .hbm, ⟨70, _⟩ => ⟨S1600000x1, .i32⟩
  | .hbm, ⟨71, _⟩ => ⟨S100000x16, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S1x16, .f32⟩
  | .hbm, ⟨76, _⟩ => ⟨S100000x16, .f32⟩
  | .hbm, ⟨77, _⟩ => ⟨S100000x16, .f32⟩
  | .hbm, ⟨78, _⟩ => ⟨S_, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KernelRun.lean ====
/-
  The idealized kernel's run with its result NAMED. The program is three regions among four stretches of host
  operations; the buffer contents at each boundary are a fold from the launch memory (`W0 … W7` of the generated
  frame), and the run ends with every unscoped buffer of a core at the last fold `W7`. The frame keeps of that only
  "the arguments end as launched"; here the same run is read once more at the result buffer `main_v42`, which
  therefore ends at `W7 … main_v42` — a term the next module reads back through the folds to the arguments.
-/
import proofs.«143258_j58411555225950_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting, with the result buffer at the last
    fold's contents and the argument arrays as launched. -/
theorem run_named : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Gen

end
-- ==== Proof.KerTerm.lean ====
/-
  The shared host chain in the kernel program's spelling: the degree norms, the gather indices and the two sums along
  the edges, each the host operations of one source line of the kernel's wrapper applied to their operands. The
  reference applies the same operations (with its own copies of the dimension records); the bridge identifies them.
-/
import proofs.«143258_j58411555225950_1_alg».proof.Proof.Gen.KernelIdeal
import Idealize.ShloMosaic.PureOps.Ideal

noncomputable section

namespace Cert.KerSide

open Cert.KernelIdeal Cert.KernelIdeal.Gen Idealize.ShloMosaic

/-- The degree norm of every node: the number of edges whose end (`idx`) is the node, clamped below at one, to the
    power minus one half. -/
def degNorm (idx : IVec S1600000 32) : FVec Ideal S100000 .f32 :=
  Host.powf
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

/-- The edge sources as gather indices: a negative index counts from the end. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `P` at the edge sources, summed into the rows of the edge targets (64 columns). -/
def sumEdges64 (P : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 P (wrapIdx src))

/-- The same with 16 columns. -/
def sumEdges16 (P : FVec Ideal S100000x16 .f32) (src dst : IVec S1600000 32) : FVec Ideal S100000x16 .f32 :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 dst)
    (Host.gather gather_S100000x16_S1600000x1_S1600000x16_1_0_n_n_0_1_116 P (wrapIdx src))

end Cert.KerSide

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibStackedProd.lean ====
/-
  GENERAL LEMMAS: matrix products over the extended reals, by rows and by stacked blocks.

  `rowsAt f X` is the array whose row `r` is row `f r` of `X`, and `rowBlock r o h W` is rows `o … o + r − 1` of `W`.
  A product's rows are the products of the left operand's rows (`matProd_rowsAt`): this is what turns a product of a
  block of rows into the block of the product of all rows. A sum over `a + b` indices is the sum over the first `a`
  plus the sum over the last `b` (`sum_split`, in any commutative monoid); so a product whose left operand is two or
  three arrays of `K` columns laid side by side is the sum of the pieces' products with the right operand's row blocks
  (`matProd_join2`, `matProd_join3`), the joined array being given by its column ranges. Nothing here needs a
  finiteness hypothesis: only commutativity and associativity of addition are used.
-/
import Idealize.ShloMosaic.PureOps.Ideal.Laws
import Idealize.ShloMosaic.Lib.ValueIdx
import proofs.«143258_j58411555225950_1_alg».proof.Proof.LibMatProd

noncomputable section

open scoped BigOperators

namespace Cert.Linear

open Idealize.ShloMosaic Idealize.ShloMosaic.ValueIdx

/-- The shape of a vector of length `a`. -/
abbrev Vc (a : Nat) : Shape := ⟨1, ![a]⟩

/-! ## Rows re-indexed -/

/-- The array whose row `r` is row `f r` of `X`. -/
def rowsAt {n N C : Nat} (f : Fin n → Fin N) (X : (Mat N C).Idx → EReal) : (Mat n C).Idx → EReal :=
  fun i => X (ix2 (f (i 0)) (i 1))

/-- Rows `o, o+1, …` of a matrix, as a matrix of `r` rows. -/
def rowBlock {R C : Nat} (r o : Nat) (h : o + r ≤ R) (W : (Mat R C).Idx → EReal) : (Mat r C).Idx → EReal :=
  fun i => W (ix2 ⟨o + (i 0).val, Nat.lt_of_lt_of_le (Nat.add_lt_add_left (idx2_lt0 i) o) h⟩ (i 1))

/-- A product's rows are the products of the left operand's rows. -/
theorem matProd_rowsAt {n N K C : Nat} (f : Fin n → Fin N) (X : (Mat N K).Idx → EReal) (W : (Mat K C).Idx → EReal) :
    matProd (rowsAt f X) W = rowsAt f (matProd X W) := rfl

/-! ## A product with stacked row blocks is the sum of the blocks' products -/

/-- A sum over `a + b` indices is the sum over the first `a` plus the sum over the last `b`. -/
theorem sum_split {M : Type} [AddCommMonoid M] (a b c : Nat) (h : a + b = c) (f : Fin c → M) :
    ∑ k : Fin c, f k = ∑ k : Fin a, f ⟨k.val, by omega⟩ + ∑ k : Fin b, f ⟨a + k.val, by omega⟩ := by
  subst h
  rw [Fin.sum_univ_add]
  rfl

/-- Two arrays of `K` columns side by side against a matrix of `T = K + K` rows: the left array against the top rows
    plus the right array against the bottom rows. The joined array is given by its two column ranges. -/
theorem matProd_join2 {R K T N : Nat} (hT : K + K = T) (A B : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k)) (p : (Mat R N).Idx) :
    matProd J W p = matProd A (rowBlock K 0 (by omega) W) p + matProd B (rowBlock K K (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + ∑ k : Fin K, B (ix2 r k) * W (ix2 ⟨K + k.val, by omega⟩ q)
  refine (sum_split K K T hT _).trans (congrArg₂ (· + ·) (Finset.sum_congr rfl fun k _ => ?_) (Finset.sum_congr rfl fun k _ => ?_))
  · exact congrArg₂ (· * ·) (hA r k) (congrArg (fun z => W (ix2 z q)) (Fin.ext (Nat.zero_add _).symm))
  · exact congrArg (· * _) (hB r k)

/-- Three arrays of `K` columns side by side against a matrix of `T = K + K + K` rows. -/
theorem matProd_join3 {R K T N : Nat} (hT : K + K + K = T) (A B C : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k))
    (hC : ∀ (r : Fin R) (k : Fin K), J (ix2 r ⟨K + K + k.val, by omega⟩) = C (ix2 r k)) (p : (Mat R N).Idx) :
    matProd J W p = matProd A (rowBlock K 0 (by omega) W) p + matProd B (rowBlock K K (by omega) W) p
      + matProd C (rowBlock K (K + K) (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + (∑ k : Fin K, B (ix2 r k) * W (ix2 ⟨K + k.val, by omega⟩ q))
        + ∑ k : Fin K, C (ix2 r k) * W (ix2 ⟨K + K + k.val, by omega⟩ q)
  refine (sum_split (K + K) K T hT _).trans (congrArg₂ (· + ·) ?_ (Finset.sum_congr rfl fun k _ => ?_))
  · refine (sum_split K K (K + K) rfl _).trans (congrArg₂ (· + ·) (Finset.sum_congr rfl fun k _ => ?_) (Finset.sum_congr rfl fun k _ => ?_))
    · exact congrArg₂ (· * ·) (hA r k) (congrArg (fun z => W (ix2 z q)) (Fin.ext (Nat.zero_add _).symm))
    · exact congrArg (· * _) (hB r k)
  · exact congrArg (· * _) (hC r k)

end Cert.Linear

end
-- ==== Proof.Spec.lean ====
/-
  The mathematics of the certificate, as plain formulas over the extended reals.

  A graph convolution layer takes node features `X` (one row per node), scales row `r` by the source-degree norm of
  node `r`, multiplies by the weights, sums the projected rows along the edges (a gather at the edge sources followed
  by an accumulating scatter at the edge targets — the same host operations in both programs, so they are never
  opened here), scales row `r` by the target-degree norm and adds the bias row. The network is two such layers with a
  rectifier between them, and the mean over all nodes of the second layer's rows at the end.

  What differs between the two programs is only how the dense parts are ARRANGED: blocks of 2000 rows on a matrix unit
  against one whole product, and fifty partial sums accumulated block after block, then scaled by `1/100000`, against
  one whole sum divided by `100000`. This module names the dense parts: `proj0` (the first layer's scaled product),
  `proj1` (the first layer's closing step, the rectifier and the second layer's scaled product) and `pool` (the second
  layer's closing step and the mean). Every formula is entry by entry; none needs a finiteness assumption.
-/
import proofs.«143258_j58411555225950_1_alg».proof.Proof.LibMatProd
import proofs.«143258_j58411555225950_1_alg».proof.Proof.LibStackedProd

noncomputable section

open scoped BigOperators

namespace Cert.GraphConv

open Idealize.ShloMosaic Idealize.ShloMosaic.ValueIdx Cert.Linear

/-- A vector of `a` entries as an `a × 1` column. -/
def col {a : Nat} (v : (Vc a).Idx → EReal) : (Mat a 1).Idx → EReal := fun i => v (ix1 (i 0))

/-- A vector of `b` entries as a `1 × b` row. -/
def row {b : Nat} (v : (Vc b).Idx → EReal) : (Mat 1 b).Idx → EReal := fun i => v (ix1 (i 1))

/-- The one row of a `1 × b` array as a vector. -/
def vecOfRow {b : Nat} (x : (Mat 1 b).Idx → EReal) : (Vc b).Idx → EReal := fun j => x (ix2 (0 : Fin 1) (j 0))

/-- Row `r` of `X` times the entry `(r, 0)` of the column `n`. -/
def scaleRows {R C : Nat} (X : (Mat R C).Idx → EReal) (n : (Mat R 1).Idx → EReal) : (Mat R C).Idx → EReal :=
  fun i => X i * n (ix2 (i 0) (0 : Fin 1))

/-- The row `b` added to every row of `X`. -/
def addRow {R C : Nat} (X : (Mat R C).Idx → EReal) (b : (Mat 1 C).Idx → EReal) : (Mat R C).Idx → EReal :=
  fun i => X i + b (ix2 (0 : Fin 1) (i 1))

/-- The rectifier, entry by entry: the larger of the entry and the float word of zero (kept as a word: both programs
    write the same word, so it is compared and never evaluated). -/
def relu {R C : Nat} (X : (Mat R C).Idx → EReal) : (Mat R C).Idx → EReal :=
  fun i => max (X i) (Ideal.ofBits .f32 0x00000000#32)

/-- A layer's closing step: the summed messages scaled row by row by the target-degree norm, plus the bias row. -/
def closeLayer {R C : Nat} (A : (Mat R C).Idx → EReal) (nIn : (Mat R 1).Idx → EReal) (b : (Mat 1 C).Idx → EReal) :
    (Mat R C).Idx → EReal := addRow (scaleRows A nIn) b

/-- The first layer's projection: the features scaled row by row by the source-degree norm, times the weights. -/
def proj0 {R K D : Nat} (X : (Mat R K).Idx → EReal) (nOut : (Mat R 1).Idx → EReal) (W : (Mat K D).Idx → EReal) :
    (Mat R D).Idx → EReal := matProd (scaleRows X nOut) W

/-- From the first layer's summed messages to the second layer's projection: close the layer, rectify, scale row by row
    by the source-degree norm, multiply by the second weights. -/
def proj1 {R K D : Nat} (A : (Mat R K).Idx → EReal) (nIn nOut : (Mat R 1).Idx → EReal) (b : (Mat 1 K).Idx → EReal)
    (W : (Mat K D).Idx → EReal) : (Mat R D).Idx → EReal :=
  matProd (scaleRows (relu (closeLayer A nIn b)) nOut) W

/-- The mean over the `R` nodes of the second layer's closed rows, as a `1 × C` array: the column sums times `s`
    (the programs have `s = 1/R`). -/
def pool {R C : Nat} (s : EReal) (A : (Mat R C).Idx → EReal) (nIn : (Mat R 1).Idx → EReal) (b : (Mat 1 C).Idx → EReal) :
    (Mat 1 C).Idx → EReal :=
  fun i => (∑ r : Fin R, closeLayer A nIn b (ix2 r (i 1))) * s

end Cert.GraphConv

end
-- ==== Proof.KerResult.lean ====
/-
  The kernel program's result as a function of its arguments: the three regions' formulas (the first projection, the
  second projection, the pooled mean) composed with the shared host chain — the degree norms laid as columns, the sums
  along the edges between the regions, the biases laid as rows, the pooled row laid as a vector.
-/
import proofs.«143258_j58411555225950_1_alg».proof.Proof.KerTerm
import proofs.«143258_j58411555225950_1_alg».proof.Proof.Spec

noncomputable section

namespace Cert.KerSide

open Cert.KernelIdeal Cert.KernelIdeal.Gen Idealize.ShloMosaic Cert.GraphConv

/-- The kernel program's result. -/
def result (x : FVec Ideal S100000x128 .f32) (src dst : IVec S1600000 32) (w1 : FVec Ideal S128x64 .f32)
    (b1 : FVec Ideal S64 .f32) (w2 : FVec Ideal S64x16 .f32) (b2 : FVec Ideal S16 .f32) : FVec Ideal S16 .f32 :=
  shapeCast S16
    (pool (((1 / 100000 : ℝ) : EReal))
      (sumEdges16
        (proj1
          (sumEdges64
            (proj0 x (shapeCast S100000x1 (degNorm src) shapeCasts_S100000_S100000x1) w1) src dst)
          (shapeCast S100000x1 (degNorm dst) shapeCasts_S100000_S100000x1)
          (shapeCast S100000x1 (degNorm src) shapeCasts_S100000_S100000x1)
          (shapeCast S1x64 b1 shapeCasts_S64_S1x64) w2)
        src dst)
      (shapeCast S100000x1 (degNorm dst) shapeCasts_S100000_S100000x1)
      (shapeCast S1x16 b2 shapeCasts_S16_S1x16))
    shapeCasts_S1x16_S16

end Cert.KerSide

end
-- ==== Proof.KernelStretch.lean ====
/-
  What each stretch of host operations of the kernel program computes, from ANY buffer contents `U` it starts from.
  The first stretch computes the two degree norms as columns; the second and third gather a region's output at the
  edge sources and sum it into the edge targets, and lay the bias vector as a row; the last lays the pooled row as a
  vector. Every other buffer a later step reads is left as the stretch found it, because no operation of the stretch
  writes it.
-/
import proofs.«143258_j58411555225950_1_alg».proof.Proof.Gen.KernelIdeal.Frame
import proofs.«143258_j58411555225950_1_alg».proof.Proof.KerTerm
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable (U : Valuation τ sig (Elt Ideal))

/-! ## Before region 0: the degree norms, as columns -/

theorem ops0_v15 : StableHlo.after (hostOps0 (F := Ideal)) U (Proc.devRef .tc main_v15)
    = (shapeCast S100000x1 (Cert.KerSide.degNorm (U (Proc.devRef .tc main_arg1))) shapeCasts_S100000_S100000x1 : FVec Ideal S100000x1 .f32) := by
  after_results; rfl

theorem ops0_v16 : StableHlo.after (hostOps0 (F := Ideal)) U (Proc.devRef .tc main_v16)
    = (shapeCast S100000x1 (Cert.KerSide.degNorm (U (Proc.devRef .tc main_arg2))) shapeCasts_S100000_S100000x1 : FVec Ideal S100000x1 .f32) := by
  after_results; rfl

theorem ops0_keep_arg0 :
    StableHlo.after (hostOps0 (F := Ideal)) U (Proc.devRef .tc main_arg0) = U (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops0_keep_arg1 :
    StableHlo.after (hostOps0 (F := Ideal)) U (Proc.devRef .tc main_arg1) = U (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops0_keep_arg2 :
    StableHlo.after (hostOps0 (F := Ideal)) U (Proc.devRef .tc main_arg2) = U (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops0_keep_arg3 :
    StableHlo.after (hostOps0 (F := Ideal)) U (Proc.devRef .tc main_arg3) = U (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops0_keep_arg4 :
    StableHlo.after (hostOps0 (F := Ideal)) U (Proc.devRef .tc main_arg4) = U (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops0_keep_arg5 :
    StableHlo.after (hostOps0 (F := Ideal)) U (Proc.devRef .tc main_arg5) = U (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops0_keep_arg6 :
    StableHlo.after (hostOps0 (F := Ideal)) U (Proc.devRef .tc main_arg6) = U (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Between regions 0 and 1: the first layer's messages summed along the edges, the first bias as a row -/

theorem ops1_v27 : StableHlo.after (hostOps1 (F := Ideal)) U (Proc.devRef .tc main_v27)
    = Cert.KerSide.sumEdges64 (U (Proc.devRef .tc main_v17)) (U (Proc.devRef .tc main_arg1)) (U (Proc.devRef .tc main_arg2)) := by
  after_results; rfl

theorem ops1_v28 : StableHlo.after (hostOps1 (F := Ideal)) U (Proc.devRef .tc main_v28)
    = (shapeCast S1x64 (U (Proc.devRef .tc main_arg4) : FVec Ideal S64 .f32) shapeCasts_S64_S1x64 : FVec Ideal S1x64 .f32) := by
  after_results; rfl

theorem ops1_keep_v15 :
    StableHlo.after (hostOps1 (F := Ideal)) U (Proc.devRef .tc main_v15) = U (Proc.devRef .tc main_v15) :=
  StableHlo.after_of_forall_not_mem (b := Proc.devRef .tc main_v15) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops1_keep_v16 :
    StableHlo.after (hostOps1 (F := Ideal)) U (Proc.devRef .tc main_v16) = U (Proc.devRef .tc main_v16) :=
  StableHlo.after_of_forall_not_mem (b := Proc.devRef .tc main_v16) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops1_keep_arg1 :
    StableHlo.after (hostOps1 (F := Ideal)) U (Proc.devRef .tc main_arg1) = U (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops1_keep_arg2 :
    StableHlo.after (hostOps1 (F := Ideal)) U (Proc.devRef .tc main_arg2) = U (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops1_keep_arg5 :
    StableHlo.after (hostOps1 (F := Ideal)) U (Proc.devRef .tc main_arg5) = U (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops1_keep_arg6 :
    StableHlo.after (hostOps1 (F := Ideal)) U (Proc.devRef .tc main_arg6) = U (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Between regions 1 and 2: the second layer's messages summed along the edges, the second bias as a row -/

theorem ops2_v39 : StableHlo.after (hostOps2 (F := Ideal)) U (Proc.devRef .tc main_v39)
    = Cert.KerSide.sumEdges16 (U (Proc.devRef .tc main_v29)) (U (Proc.devRef .tc main_arg1)) (U (Proc.devRef .tc main_arg2)) := by
  after_results; rfl

theorem ops2_v40 : StableHlo.after (hostOps2 (F := Ideal)) U (Proc.devRef .tc main_v40)
    = (shapeCast S1x16 (U (Proc.devRef .tc main_arg6) : FVec Ideal S16 .f32) shapeCasts_S16_S1x16 : FVec Ideal S1x16 .f32) := by
  after_results; rfl

theorem ops2_keep_v16 :
    StableHlo.after (hostOps2 (F := Ideal)) U (Proc.devRef .tc main_v16) = U (Proc.devRef .tc main_v16) :=
  StableHlo.after_of_forall_not_mem (b := Proc.devRef .tc main_v16) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## After region 2: the pooled row as a vector -/

theorem ops3_v42 : StableHlo.after (hostOps3 (F := Ideal)) U (Proc.devRef .tc main_v42)
    = (shapeCast S16 (U (Proc.devRef .tc main_v41) : FVec Ideal S1x16 .f32) shapeCasts_S1x16_S16 : FVec Ideal S16 .f32) := by
  after_results; rfl

end Cert.KernelIdeal.Gen

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«143258_j58411555225950_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.DenseParts.lean ====
/-
  The dense parts of the graph convolution, block by block.

  A kernel forms a dense part on a block of rows at a time: it scales the block's rows by a column of norms (a column
  broadcast along the rows' entries and multiplied in), and multiplies by the weights on a matrix unit. This module
  says that these spellings are the specification's `scaleRows` and `matProd`, and that each dense part of a block of
  rows is the same block of rows of the dense part of the whole array: entry `(r, q)` of a product reads row `r` of the
  left operand only, and the scale, the bias and the rectifier act within a row. Nothing here needs a finiteness
  hypothesis.
-/
import proofs.«143258_j58411555225950_1_alg».proof.Proof.Spec
import proofs.«143258_j58411555225950_1_alg».proof.Proof.LibMatProd
import proofs.«143258_j58411555225950_1_alg».proof.Proof.LibDotLists
import proofs.«143258_j58411555225950_1_alg».proof.Proof.LibStackedProd
import proofs.«143258_j58411555225950_1_alg».proof.Proof.LibKeepdims
import Idealize.ShloMosaic.Lib.Pipeline.Value
import Idealize.ShloMosaic.Lib.ValueIdx

noncomputable section

namespace Cert.GraphConv

open Idealize.ShloMosaic Idealize.ShloMosaic.ValueIdx Cert.Linear

/-- A column of norms broadcast along the rows' entries and multiplied in scales the rows. -/
theorem mulf_column {R C : Nat} (X : FVec Ideal (Mat R C) .f32) (n : FVec Ideal (Mat R 1) .f32)
    (h1 : (Mat R 1).ShapeCasts (Mat R 1)) (h2 : (Mat R 1).Broadcasts (Mat R C)) :
    mulf X (broadcastTo (Mat R C) (shapeCast (Mat R 1) n h1) h2) = scaleRows X n := by
  funext i
  obtain ⟨r, k, rfl⟩ : ∃ (r : Fin R) (k : Fin C), i = ix2 r k := ⟨i 0, i 1, eq_ix2 i⟩
  rw [mulf_apply, shapeCast_self]
  exact congrArg (X (ix2 r k) * ·) (Cert.LibKeepdims.broadcastTo_a1_ab_apply n h2 r k)

/-- Scaling commutes with taking rows: row `r`'s scale is read at row `r`. -/
theorem scaleRows_rowsAt {n N C : Nat} (f : Fin n → Fin N) (X : (Mat N C).Idx → EReal) (s : (Mat N 1).Idx → EReal) :
    scaleRows (rowsAt f X) (rowsAt f s) = rowsAt f (scaleRows X s) := rfl

/-- The first projection of some rows is those rows of the first projection. -/
theorem proj0_rowsAt {n N K D : Nat} (f : Fin n → Fin N) (X : (Mat N K).Idx → EReal) (s : (Mat N 1).Idx → EReal)
    (W : (Mat K D).Idx → EReal) : proj0 (rowsAt f X) (rowsAt f s) W = rowsAt f (proj0 X s W) := rfl

/-- The second projection of some rows (the bias row and the weights are shared by all rows) is those rows of the
    second projection. -/
theorem proj1_rowsAt {n N K D : Nat} (f : Fin n → Fin N) (A : (Mat N K).Idx → EReal) (sIn sOut : (Mat N 1).Idx → EReal)
    (b : (Mat 1 K).Idx → EReal) (W : (Mat K D).Idx → EReal) :
    proj1 (rowsAt f A) (rowsAt f sIn) (rowsAt f sOut) b W = rowsAt f (proj1 A sIn sOut b W) := rfl

end Cert.GraphConv

end
-- ==== Proof.Region0.lean ====
/-
  REGION 0, read: the array the first call leaves is the first layer's scaled product `proj0` of the arrays it reads.

  The call runs over fifty grid points. At point `t` it is handed rows `2000 t … 2000 t + 1999` of the features and of
  the column of source-degree norms, and the whole weight matrix; it scales the block's rows, multiplies by the weights
  on the matrix unit, and writes the result back as rows `2000 t …` of the output. At the ideal values a change of
  float format is the identity and the matrix unit's product into a zero accumulator is the plain product, so point
  `t` writes the product of the scaled block with the weights. Entry `(r, q)` of a product reads row `r` of its left
  operand only, so this is rows `2000 t …` of the product of ALL the scaled rows with the weights; and the fifty blocks
  tile the `100000` rows (row `r` lies in block `r / 2000`). Hence the whole array.
-/
import proofs.«143258_j58411555225950_1_alg».proof.Proof.Gen.KernelIdeal.Frame
import proofs.«143258_j58411555225950_1_alg».proof.Proof.Spec
import proofs.«143258_j58411555225950_1_alg».proof.Proof.DenseParts
import proofs.«143258_j58411555225950_1_alg».proof.Proof.LibMatProd
import proofs.«143258_j58411555225950_1_alg».proof.Proof.LibStackedProd
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat Cfg Window)
open Cert.Linear Cert.GraphConv

namespace First

variable (V : (c : Dev nD) → (b : Ref sig .tc) → Buf (Elt Ideal) ((c : Thread nD τ).loc b))

/-- The call's product contracts the block's columns with the weights' rows. -/
theorem contracts : Contracts dot_S2000x128_S128x64_S2000x64_1_0_0_1_n_n :=
  contracts_of_lists _ rfl rfl rfl rfl rfl rfl

theorem zero_offsets : (![0, 0] : Fin 2 → Nat) = fun _ => 0 := funext fun a => by fin_cases a <;> rfl

/-- Row `r` of block `t` is row `2000 t + r` of the array. -/
def rowOf (t : Nat) (ht : t < 50) (r : Fin 2000) : Fin 100000 := ⟨2000 * t + r.val, by have := r.isLt; omega⟩

theorem lt50 (t : Fin cfg0.N) : t.val < 50 := by have h : cfg0.N = 50 := N_0; have := t.isLt; omega

/-- The body's value: the block of features scaled row by row, times the weights. -/
theorem payload (x0 : Vec Ideal S2000x128 .f32) (x1 : Vec Ideal S2000x1 .f32) (x2 : Vec Ideal S128x64 .f32) :
    k0_pay1 (F := Ideal) x0 x1 x2 = matProd (scaleRows x0 x1) x2 := by
  unfold k0_pay1
  refine (matmul_zero_eq contracts none _ _).trans ?_
  exact congrArg (fun L => matProd L x2) (mulf_column x0 x1 _ _)

/-- The same, with each block given by an equation. -/
theorem payload_congr {x0 y0 : Vec Ideal S2000x128 .f32} {x1 y1 : Vec Ideal S2000x1 .f32} {x2 y2 : Vec Ideal S128x64 .f32}
    (h0 : x0 = y0) (h1 : x1 = y1) (h2 : x2 = y2) : k0_pay1 (F := Ideal) x0 x1 x2 = matProd (scaleRows y0 y1) y2 := by
  subst h0 h1 h2; exact payload _ _ _

/-- The windows' index maps over the grid: the row-blocked windows move with the point, the weights stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows `2000 t …` of the features. -/
theorem features_block (c : Dev nD) (t : Fin cfg0.N) :
    (iblk0 (F := Ideal) V c 0 t : Vec Ideal S2000x128 .f32) = rowsAt (rowOf t.val (lt50 t)) (V c main_arg0) := by
  obtain ⟨h0, h1, -⟩ := index_maps t
  funext x
  unfold iblk0
  rw [View.read_apply]
  show (V c main_arg0 : S100000x128.Idx → EReal) (((cfg0.win 0).blk t).view.emb x)
    = (V c main_arg0 : S100000x128.Idx → EReal) (ix2 (rowOf t.val (lt50 t) (x 0)) (x 1))
  refine congrArg _ (funext fun a => Fin.ext ?_)
  match a with
  | ⟨0, _⟩ => show win0_0.index t (0 : Fin 2) * 2000 + 1 * (x 0).val = 2000 * t.val + (x 0).val; rw [h0]; omega
  | ⟨1, _⟩ => show win0_0.index t (1 : Fin 2) * 128 + 1 * (x 1).val = (x 1).val; rw [h1]; omega

/-- The norms' block at point `t` is rows `2000 t …` of the column of norms. -/
theorem norm_block (c : Dev nD) (t : Fin cfg0.N) :
    (iblk0 (F := Ideal) V c 1 t : Vec Ideal S2000x1 .f32) = rowsAt (rowOf t.val (lt50 t)) (V c main_v15) := by
  obtain ⟨-, -, h0, h1, -⟩ := index_maps t
  funext x
  unfold iblk0
  rw [View.read_apply]
  show (V c main_v15 : S100000x1.Idx → EReal) (((cfg0.win 1).blk t).view.emb x)
    = (V c main_v15 : S100000x1.Idx → EReal) (ix2 (rowOf t.val (lt50 t) (x 0)) (x 1))
  refine congrArg _ (funext fun a => Fin.ext ?_)
  match a with
  | ⟨0, _⟩ => show win0_1.index t (0 : Fin 2) * 2000 + 1 * (x 0).val = 2000 * t.val + (x 0).val; rw [h0]; omega
  | ⟨1, _⟩ => show win0_1.index t (1 : Fin 2) * 1 + 1 * (x 1).val = (x 1).val; rw [h1]; omega

/-- The weights' block at every point is the whole weight matrix. -/
theorem weights_block (c : Dev nD) (t : Fin cfg0.N) :
    (iblk0 (F := Ideal) V c 2 t : Vec Ideal S128x64 .f32) = V c main_arg3 := by
  obtain ⟨-, -, -, -, h0, h1, -⟩ := index_maps t
  funext x
  unfold iblk0
  rw [View.read_apply]
  show (V c main_arg3 : S128x64.Idx → EReal) (((cfg0.win 2).blk t).view.emb x) = (V c main_arg3 : S128x64.Idx → EReal) x
  refine congrArg _ (funext fun a => Fin.ext ?_)
  match a with
  | ⟨0, _⟩ => show win0_2.index t (0 : Fin 2) * 128 + 1 * (x 0).val = (x 0).val; rw [h0]; omega
  | ⟨1, _⟩ => show win0_2.index t (1 : Fin 2) * 64 + 1 * (x 1).val = (x 1).val; rw [h1]; omega

/-- Block `t` of an array of the output's shape is its rows `2000 t …`. -/
theorem out_block (t : Fin cfg0.N) (G : S100000x64.Idx → EReal) :
    (((cfg0.win 3).blk t).view.read (Elt Ideal) G : Vec Ideal S2000x64 .f32) = rowsAt (rowOf t.val (lt50 t)) G := by
  obtain ⟨-, -, -, -, -, -, h0, h1⟩ := index_maps t
  funext x
  rw [View.read_apply]
  show G (((cfg0.win 3).blk t).view.emb x) = G (ix2 (rowOf t.val (lt50 t) (x 0)) (x 1))
  refine congrArg _ (funext fun a => Fin.ext ?_)
  match a with
  | ⟨0, _⟩ => show win0_3.index t (0 : Fin 2) * 2000 + 1 * (x 0).val = 2000 * t.val + (x 0).val; rw [h0]; omega
  | ⟨1, _⟩ => show win0_3.index t (1 : Fin 2) * 64 + 1 * (x 1).val = (x 1).val; rw [h1]; omega

/-- What point `t` writes back is block `t` of the first projection of the arrays the region reads. -/
theorem flushed_eq (c : Dev nD) (t : Fin cfg0.N) :
    (dat0 (F := Ideal) V c).flushed 3 t
      = ((cfg0.win 3).blk t).view.read (Elt Ideal) (proj0 (V c main_arg0) (V c main_v15) (V c main_arg3)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S2000x1) zero_offsets,
    View.ld_unit_zero (S := S128x64) zero_offsets]
  show (k0_pay1 (F := Ideal) (iblk0 V c 0 t) (iblk0 V c 1 t) (iblk0 V c 2 t) : Vec Ideal S2000x64 .f32) = _
  refine (payload_congr (features_block V c t) (norm_block V c t) (weights_block V c t)).trans ?_
  exact ((out_block t _).trans (proj0_rowsAt _ _ _ _).symm).symm

/-- An index of the output is in point `t`'s block iff each coordinate is in the block's range on its axis. -/
theorem mem_block (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v17).slice (win0_3.rect t)).set ↔ _
  rw [View.set_slice_whole, Rect.mem_set_unit]
  exact Iff.rfl

/-- The fifty blocks tile the rows: row `r` is in block `r / 2000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨-, -, -, -, -, -, h0, h1⟩ := index_maps t
  have h0' : win0_3.index t (0 : Fin 2) = (i 0).val / 2000 := h0
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [h0']; omega
  | ⟨1, _⟩ =>
    show win0_3.index t (1 : Fin 2) * 64 ≤ (i 1).val ∧ (i 1).val < win0_3.index t (1 : Fin 2) * 64 + 64
    rw [h1]; omega

end First

variable (V : (c : Dev nD) → (b : Ref sig .tc) → Buf (Elt Ideal) ((c : Thread nD τ).loc b))

/-- REGION 0: the array the first call leaves is the first projection of the arrays it reads. -/
theorem region0_value (c : Dev nD) :
    (dat0 (F := Ideal) V c).arrAt 3 cfg0.N
      = Cert.GraphConv.proj0 (V c main_arg0) (V c main_v15) (V c main_arg3) :=
  (dat0 (F := Ideal) V c).arrAt_eq_of_cover 3 _ (fun t _ => First.flushed_eq V c t) First.cover

end Cert.KernelIdeal.Gen

end
-- ==== Proof.Region1.lean ====
/-
  REGION 1, read: the array the second call leaves is the second layer's scaled product `proj1` of the arrays it reads.

  The call runs over fifty grid points. At point `t` it is handed rows `2000 t … 2000 t + 1999` of the first layer's
  summed messages and of the two columns of degree norms, and the whole bias row and second weight matrix. On the
  block it closes the first layer (scale each row by its target-degree norm, add the bias row), rectifies, scales each
  row by its source-degree norm, multiplies by the weights on the matrix unit, and writes the result back as rows
  `2000 t …` of the output. At the ideal values a change of float format is the identity and the matrix unit's
  product into a zero accumulator is the plain product; the scale, the bias and the rectifier act within a row, and
  entry `(r, q)` of a product reads row `r` of its left operand only. So point `t` writes rows `2000 t …` of `proj1`
  of the whole arrays, and the fifty blocks tile the `100000` rows (row `r` lies in block `r / 2000`). The zero of
  the rectifier is the same float word in the kernel and in the specification: it is compared, never evaluated.
-/
import proofs.«143258_j58411555225950_1_alg».proof.Proof.Gen.KernelIdeal.Frame
import proofs.«143258_j58411555225950_1_alg».proof.Proof.Spec
import proofs.«143258_j58411555225950_1_alg».proof.Proof.DenseParts
import proofs.«143258_j58411555225950_1_alg».proof.Proof.LibMatProd
import proofs.«143258_j58411555225950_1_alg».proof.Proof.LibStackedProd
import Idealize.ShloMosaic.Lib.Pipeline.Value
import Idealize.ShloMosaic.Lib.ValueLayout
import Idealize.ShloMosaic.Lib.ValueIdx

noncomputable section

namespace Cert.GraphConv

open Idealize.ShloMosaic Idealize.ShloMosaic.ValueIdx Cert.Linear

/-- A bias row broadcast over all rows and added in adds the row to every row. -/
theorem addf_row {R C : Nat} (X : FVec Ideal (Mat R C) .f32) (b : FVec Ideal (Mat 1 C) .f32)
    (h1 : (Mat 1 C).ShapeCasts (Mat 1 C)) (h2 : (Mat 1 C).Broadcasts (Mat R C)) :
    addf X (broadcastTo (Mat R C) (shapeCast (Mat 1 C) b h1) h2) = addRow X b := by
  funext i
  obtain ⟨r, k, rfl⟩ : ∃ (r : Fin R) (k : Fin C), i = ix2 r k := ⟨i 0, i 1, eq_ix2 i⟩
  rw [addf_apply, shapeCast_self]
  exact congrArg (X (ix2 r k) + ·) (broadcastTo_1b_ab_apply b h2 r k)

/-- The larger of each entry and the broadcast float word of zero is the rectifier. -/
theorem maximumf_zero_word {R C : Nat} (X : FVec Ideal (Mat R C) .f32) :
    maximumf X (broadcast (Mat R C) (Scalar.ofBits (F := Ideal) .f32 0x00000000#32)) = relu X := rfl

end Cert.GraphConv

namespace Cert.KernelIdeal.Gen

open Idealize.ShloMosaic Idealize.ShloMosaic.TcCoe Idealize.SL.Sem Idealize.ShloMosaic.ValueIdx
open Idealize.ShloMosaic.Pipeline (Dat Cfg Window)
open Cert.Linear Cert.GraphConv

namespace Second

variable (V : (c : Dev nD) → (b : Ref sig .tc) → Buf (Elt Ideal) ((c : Thread nD τ).loc b))

/-- The call's product contracts the block's columns with the weights' rows. -/
theorem contracts : Contracts dot_S2000x64_S64x16_S2000x16_1_0_0_1_n_n :=
  contracts_of_lists _ rfl rfl rfl rfl rfl rfl

theorem zero_offsets : (![0, 0] : Fin 2 → Nat) = fun _ => 0 := funext fun a => by fin_cases a <;> rfl

/-- Row `r` of block `t` is row `2000 t + r` of the array. -/
def rowOf (t : Nat) (ht : t < 50) (r : Fin 2000) : Fin 100000 := ⟨2000 * t + r.val, by have := r.isLt; omega⟩

theorem lt50 (t : Fin cfg1.N) : t.val < 50 := by have h : cfg1.N = 50 := N_1; have := t.isLt; omega

/-- The body's value on blocks `A` (summed messages), `sIn`, `sOut` (the norms), the bias row `b` and the weights `W`:
    close the layer, rectify, scale, multiply. -/
theorem payload (A : Vec Ideal S2000x64 .f32) (sIn : Vec Ideal S2000x1 .f32) (b : Vec Ideal S1x64 .f32)
    (sOut : Vec Ideal S2000x1 .f32) (W : Vec Ideal S64x16 .f32) :
    k1_pay1 (F := Ideal) A sIn b sOut W = proj1 A sIn sOut b W := by
  unfold k1_pay1
  refine (matmul_zero_eq contracts none _ _).trans ?_
  refine congrArg (fun L => matProd L W) ?_
  refine (mulf_column _ sOut _ _).trans (congrArg (fun Z => scaleRows Z sOut) ?_)
  refine (maximumf_zero_word _).trans (congrArg relu ?_)
  refine (addf_row _ b _ _).trans (congrArg (fun Z => addRow Z b) ?_)
  exact (congrArg (fun Z => mulf Z _) (shapeCast_self A _)).trans (mulf_column A sIn _ _)

/-- The same, with each block given by an equation. -/
theorem payload_congr {A A' : Vec Ideal S2000x64 .f32} {sIn sIn' : Vec Ideal S2000x1 .f32} {b b' : Vec Ideal S1x64 .f32}
    {sOut sOut' : Vec Ideal S2000x1 .f32} {W W' : Vec Ideal S64x16 .f32}
    (h0 : A = A') (h1 : sIn = sIn') (h2 : b = b') (h3 : sOut = sOut') (h4 : W = W') :
    k1_pay1 (F := Ideal) A sIn b sOut W = proj1 A' sIn' sOut' b' W' := by
  subst h0 h1 h2 h3 h4; exact payload _ _ _ _ _

/-- The windows' index maps over the grid: the row-blocked windows move with the point, the bias row and the weights
    stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The summed messages' block at point `t` is rows `2000 t …` of the summed messages. -/
theorem messages_block (c : Dev nD) (t : Fin cfg1.N) :
    (iblk1 (F := Ideal) V c 0 t : Vec Ideal S2000x64 .f32) = rowsAt (rowOf t.val (lt50 t)) (V c main_v27) := by
  obtain ⟨h0, h1, -⟩ := index_maps t
  funext x
  unfold iblk1
  rw [View.read_apply]
  show (V c main_v27 : S100000x64.Idx → EReal) (((cfg1.win 0).blk t).view.emb x)
    = (V c main_v27 : S100000x64.Idx → EReal) (ix2 (rowOf t.val (lt50 t) (x 0)) (x 1))
  refine congrArg _ (funext fun a => Fin.ext ?_)
  match a with
  | ⟨0, _⟩ => show win1_0.index t (0 : Fin 2) * 2000 + 1 * (x 0).val = 2000 * t.val + (x 0).val; rw [h0]; omega
  | ⟨1, _⟩ => show win1_0.index t (1 : Fin 2) * 64 + 1 * (x 1).val = (x 1).val; rw [h1]; omega

/-- The target-degree norms' block at point `t` is rows `2000 t …` of their column. -/
theorem norm_in_block (c : Dev nD) (t : Fin cfg1.N) :
    (iblk1 (F := Ideal) V c 1 t : Vec Ideal S2000x1 .f32) = rowsAt (rowOf t.val (lt50 t)) (V c main_v16) := by
  obtain ⟨-, -, h0, h1, -⟩ := index_maps t
  funext x
  unfold iblk1
  rw [View.read_apply]
  show (V c main_v16 : S100000x1.Idx → EReal) (((cfg1.win 1).blk t).view.emb x)
    = (V c main_v16 : S100000x1.Idx → EReal) (ix2 (rowOf t.val (lt50 t) (x 0)) (x 1))
  refine congrArg _ (funext fun a => Fin.ext ?_)
  match a with
  | ⟨0, _⟩ => show win1_1.index t (0 : Fin 2) * 2000 + 1 * (x 0).val = 2000 * t.val + (x 0).val; rw [h0]; omega
  | ⟨1, _⟩ => show win1_1.index t (1 : Fin 2) * 1 + 1 * (x 1).val = (x 1).val; rw [h1]; omega

/-- The source-degree norms' block at point `t` is rows `2000 t …` of their column. -/
theorem norm_out_block (c : Dev nD) (t : Fin cfg1.N) :
    (iblk1 (F := Ideal) V c 2 t : Vec Ideal S2000x1 .f32) = rowsAt (rowOf t.val (lt50 t)) (V c main_v15) := by
  obtain ⟨-, -, -, -, h0, h1, -⟩ := index_maps t
  funext x
  unfold iblk1
  rw [View.read_apply]
  show (V c main_v15 : S100000x1.Idx → EReal) (((cfg1.win 2).blk t).view.emb x)
    = (V c main_v15 : S100000x1.Idx → EReal) (ix2 (rowOf t.val (lt50 t) (x 0)) (x 1))
  refine congrArg _ (funext fun a => Fin.ext ?_)
  match a with
  | ⟨0, _⟩ => show win1_2.index t (0 : Fin 2) * 2000 + 1 * (x 0).val = 2000 * t.val + (x 0).val; rw [h0]; omega
  | ⟨1, _⟩ => show win1_2.index t (1 : Fin 2) * 1 + 1 * (x 1).val = (x 1).val; rw [h1]; omega

/-- The bias row's block at every point is the whole bias row. -/
theorem bias_block (c : Dev nD) (t : Fin cfg1.N) :
    (iblk1 (F := Ideal) V c 3 t : Vec Ideal S1x64 .f32) = V c main_v28 := by
  obtain ⟨-, -, -, -, -, -, h0, h1, -⟩ := index_maps t
  funext x
  unfold iblk1
  rw [View.read_apply]
  show (V c main_v28 : S1x64.Idx → EReal) (((cfg1.win 3).blk t).view.emb x) = (V c main_v28 : S1x64.Idx → EReal) x
  refine congrArg _ (funext fun a => Fin.ext ?_)
  match a with
  | ⟨0, _⟩ => show win1_3.index t (0 : Fin 2) * 1 + 1 * (x 0).val = (x 0).val; rw [h0]; omega
  | ⟨1, _⟩ => show win1_3.index t (1 : Fin 2) * 64 + 1 * (x 1).val = (x 1).val; rw [h1]; omega

/-- The weights' block at every point is the whole second weight matrix. -/
theorem weights_block (c : Dev nD) (t : Fin cfg1.N) :
    (iblk1 (F := Ideal) V c 4 t : Vec Ideal S64x16 .f32) = V c main_arg5 := by
  obtain ⟨-, -, -, -, -, -, -, -, h0, h1, -⟩ := index_maps t
  funext x
  unfold iblk1
  rw [View.read_apply]
  show (V c main_arg5 : S64x16.Idx → EReal) (((cfg1.win 4).blk t).view.emb x) = (V c main_arg5 : S64x16.Idx → EReal) x
  refine congrArg _ (funext fun a => Fin.ext ?_)
  match a with
  | ⟨0, _⟩ => show win1_4.index t (0 : Fin 2) * 64 + 1 * (x 0).val = (x 0).val; rw [h0]; omega
  | ⟨1, _⟩ => show win1_4.index t (1 : Fin 2) * 16 + 1 * (x 1).val = (x 1).val; rw [h1]; omega

/-- Block `t` of an array of the output's shape is its rows `2000 t …`. -/
theorem out_block (t : Fin cfg1.N) (G : S100000x16.Idx → EReal) :
    (((cfg1.win 5).blk t).view.read (Elt Ideal) G : Vec Ideal S2000x16 .f32) = rowsAt (rowOf t.val (lt50 t)) G := by
  obtain ⟨-, -, -, -, -, -, -, -, -, -, h0, h1⟩ := index_maps t
  funext x
  rw [View.read_apply]
  show G (((cfg1.win 5).blk t).view.emb x) = G (ix2 (rowOf t.val (lt50 t) (x 0)) (x 1))
  refine congrArg _ (funext fun a => Fin.ext ?_)
  match a with
  | ⟨0, _⟩ => show win1_5.index t (0 : Fin 2) * 2000 + 1 * (x 0).val = 2000 * t.val + (x 0).val; rw [h0]; omega
  | ⟨1, _⟩ => show win1_5.index t (1 : Fin 2) * 16 + 1 * (x 1).val = (x 1).val; rw [h1]; omega

/-- What point `t` writes back is block `t` of the second projection of the arrays the region reads. -/
theorem flushed_eq (c : Dev nD) (t : Fin cfg1.N) :
    (dat1 (F := Ideal) V c).flushed 5 t
      = ((cfg1.win 5).blk t).view.read (Elt Ideal)
          (proj1 (V c main_v27) (V c main_v16) (V c main_v15) (V c main_v28) (V c main_arg5)) := by
  show (cfg1.win 5).cut (grid1.coords t) ((dat1 V c).after 5 t) = _
  rw [after1_5]
  unfold out1_5
  rw [View.canon_unit_zero zero_offsets]
  simp only [View.ld_unit_zero (S := S2000x64) zero_offsets, View.ld_unit_zero (S := S2000x1) zero_offsets,
    View.ld_unit_zero (S := S1x64) zero_offsets, View.ld_unit_zero (S := S64x16) zero_offsets]
  show (k1_pay1 (F := Ideal) (iblk1 V c 0 t) (iblk1 V c 1 t) (iblk1 V c 3 t) (iblk1 V c 2 t) (iblk1 V c 4 t)
    : Vec Ideal S2000x16 .f32) = _
  refine (payload_congr (messages_block V c t) (norm_in_block V c t) (bias_block V c t) (norm_out_block V c t)
    (weights_block V c t)).trans ?_
  exact ((out_block t _).trans (proj1_rowsAt _ _ _ _ _ _).symm).symm

/-- An index of the output is in point `t`'s block iff each coordinate is in the block's range on its axis. -/
theorem mem_block (t : Fin cfg1.N) (i : S100000x16.Idx) :
    i ∈ ((cfg1.win 5).blk t).view.set ↔ ∀ a : Fin 2, win1_5.index t a * S2000x16.size a ≤ (i a).val
      ∧ (i a).val < win1_5.index t a * S2000x16.size a + S2000x16.size a := by
  show i ∈ ((View.whole main_v29).slice (win1_5.rect t)).set ↔ _
  rw [View.set_slice_whole, Rect.mem_set_unit]
  exact Iff.rfl

/-- The fifty blocks tile the rows: row `r` is in block `r / 2000`. -/
theorem cover (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 50 := N_1
  let t : Fin cfg1.N := ⟨(i 0).val / 2000, by rw [hN]; omega⟩
  obtain ⟨-, -, -, -, -, -, -, -, -, -, h0, h1⟩ := index_maps t
  have h0' : win1_5.index t (0 : Fin 2) = (i 0).val / 2000 := h0
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [h0']; omega
  | ⟨1, _⟩ =>
    show win1_5.index t (1 : Fin 2) * 16 ≤ (i 1).val ∧ (i 1).val < win1_5.index t (1 : Fin 2) * 16 + 16
    rw [h1]; omega

end Second

variable (V : (c : Dev nD) → (b : Ref sig .tc) → Buf (Elt Ideal) ((c : Thread nD τ).loc b))

/-- REGION 1: the array the second call leaves is the second projection of the arrays it reads. -/
theorem region1_value (c : Dev nD) :
    (dat1 (F := Ideal) V c).arrAt 5 cfg1.N
      = Cert.GraphConv.proj1 (V c main_v27) (V c main_v16) (V c main_v15) (V c main_v28) (V c main_arg5) :=
  (dat1 (F := Ideal) V c).arrAt_eq_of_cover 5 _ (fun t _ => Second.flushed_eq V c t) Second.cover

end Cert.KernelIdeal.Gen

end
-- ==== Proof.LibSumSplit.lean ====
/-
  Two ways of regrouping a finite sum in a commutative monoid.

  A sum over the first `2·n` naturals that keeps only the even ones (or only the odd ones), each contributing a term
  that depends on its half, is the sum of those terms over the first `n` naturals.  A sum over the first `a·b`
  naturals is the sum over `a` consecutive runs of length `b`.  Both use only associativity and commutativity of the
  addition, so they hold on the extended reals with no finiteness assumption.
-/
import Mathlib.Algebra.BigOperators.Fin
import Mathlib.Algebra.BigOperators.Intervals

open scoped BigOperators

namespace Cert.LibSumSplit

variable {M : Type*} [AddCommMonoid M]

/-- Keeping the even naturals below `2·n`, the one `2·i` contributing `f i`: the sum of `f` over `i < n`. -/
theorem sum_range_even (f : ℕ → M) (n : ℕ) :
    ∑ s ∈ Finset.range (2 * n), (if s % 2 = 0 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : (2 * n) % 2 = 0 := by omega
    have h1 : ¬(2 * n + 1) % 2 = 0 := by omega
    have h2 : (2 * n) / 2 = n := by omega
    rw [if_pos h0, if_neg h1, h2, add_zero]

/-- Keeping the odd naturals below `2·n`, the one `2·i + 1` contributing `f i`: the sum of `f` over `i < n`. -/
theorem sum_range_odd (f : ℕ → M) (n : ℕ) :
    ∑ s ∈ Finset.range (2 * n), (if s % 2 = 1 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : ¬(2 * n) % 2 = 1 := by omega
    have h1 : (2 * n + 1) % 2 = 1 := by omega
    have h2 : (2 * n + 1) / 2 = n := by omega
    rw [if_neg h0, if_pos h1, h2, add_zero]

/-- The first `a·b` naturals are `a` consecutive runs of `b`. -/
theorem sum_range_mul (g : ℕ → M) (a b : ℕ) :
    ∑ k ∈ Finset.range (a * b), g k = ∑ i ∈ Finset.range a, ∑ j ∈ Finset.range b, g (i * b + j) := by
  induction a with
  | zero => simp
  | succ a ih =>
    rw [Finset.sum_range_succ, ← ih, Nat.succ_mul, Finset.sum_range_add]

end Cert.LibSumSplit
-- ==== Proof.Region2.lean ====
/-
  The mean-pool region: the array it leaves is the mean, over the 100000 nodes, of the second layer's closed rows.

  The region visits fifty blocks of 2000 rows. Its accumulator is one row of 16 entries kept from one block to the
  next: the first block zeroes it, every block adds to entry `j` the sum over the block's rows `r` of
  `A (r, j) · nIn (r, 0) + b (0, j)`, and the last block then multiplies every entry by `1/100000`. So after the
  block `n < 49` entry `j` holds the sum of the closed entries `(k, j)` over the first `2000·(n + 1)` rows `k`
  (by induction on the block, `0 + x = x` at the start), and after the last block the sum over all `50 · 2000` rows,
  regrouped into one sum over the 100000 rows, times `1/100000`. Only associativity and commutativity of the
  addition of extended reals are used, so nothing needs to be finite. The accumulator's block is its whole array and
  is written back once, after the last block.
-/
import proofs.«143258_j58411555225950_1_alg».proof.Proof.Gen.KernelIdeal.Frame
import proofs.«143258_j58411555225950_1_alg».proof.Proof.Spec
import proofs.«143258_j58411555225950_1_alg».proof.Proof.LibKeepdims
import proofs.«143258_j58411555225950_1_alg».proof.Proof.LibSumSplit
import Idealize.ShloMosaic.Lib.Pipeline.Value
import Idealize.ShloMosaic.Lib.ValueLayout
import Idealize.ShloMosaic.PureOps.IdealRules
import Idealize.ShloMosaic.Lib.Tactic

noncomputable section
namespace Cert.KernelIdeal.Gen
open Idealize.ShloMosaic Idealize.ShloMosaic.TcCoe Idealize.SL.Sem
open Idealize.ShloMosaic.Pipeline (Dat Cfg Window)

/-! ## What each control case leaves in the accumulator's buffer, as payloads of the blocks it reads -/

section Pieces

variable {F : FTy → Type} [FloatOps F] [Named F]

theorem zeros2 : (![0, 0] : Fin 2 → Nat) = fun _ => 0 := funext fun a => by fin_cases a <;> rfl

/-- The first point: the buffer is zeroed, read back, and left at the zero block plus the block's column sums. -/
theorem first_point_leaves (c : Dev nD) (i : grid2.Coords) (a1 : Memref sig .tc .vmem S2000x16 .f32) (h1 : a1.IsWhole)
    (a2 : Memref sig .tc .vmem S2000x1 .f32) (h2 : a2.IsWhole) (a3 : Memref sig .tc .vmem S1x16 .f32) (h3 : a3.IsWhole)
    (a4 : Memref sig .tc .vmem S1x16 .f32) (h4 : a4.IsWhole) (hc0 : cond2_0 i) (hc1 : ¬cond2_1 i)
    (x0 : Vec F S2000x16 .f32) (x1 : Vec F S2000x1 .f32) (x2 : Vec F S1x16 .f32) :
    out2_A_3 c i a1 h1 a2 h2 a3 h3 a4 h4 hc0 hc1 x0 x1 x2 = k2_pay2 x0 x1 x2 (k2_pay1 (F := F)) := by
  unfold out2_A_3
  rw [View.read_writes_eq_canon _ _ _ (cover2_A_3 c i a1 h1 a2 h2 a3 h3 a4 h4 hc0 hc1 x0 x1 x2)]
  unfold kernelRun2_A
  dsimp only
  sl_unfold_words
  rw [View.canon_cons_unit_zero (S := S1x16) zeros2, View.readCov_unit_zero (S := S1x16) _ zeros2]
  simp only [View.readAt_eq_ld, h1.read_unread, h2.read_unread, h3.read_unread, View.ld_unit_zero (S := S2000x16) zeros2,
    View.ld_unit_zero (S := S2000x1) zeros2, View.ld_unit_zero (S := S1x16) zeros2]

/-- A middle point: the buffer holding `xo` is left at `xo` plus the block's column sums. -/
theorem middle_point_leaves (c : Dev nD) (i : grid2.Coords) (a1 : Memref sig .tc .vmem S2000x16 .f32) (h1 : a1.IsWhole)
    (a2 : Memref sig .tc .vmem S2000x1 .f32) (h2 : a2.IsWhole) (a3 : Memref sig .tc .vmem S1x16 .f32) (h3 : a3.IsWhole)
    (a4 : Memref sig .tc .vmem S1x16 .f32) (h4 : a4.IsWhole) (hc0 : ¬cond2_0 i) (hc1 : ¬cond2_1 i)
    (x0 : Vec F S2000x16 .f32) (x1 : Vec F S2000x1 .f32) (x2 : Vec F S1x16 .f32) (xo : Vec F S1x16 .f32) :
    out2_B_3 c i a1 h1 a2 h2 a3 h3 a4 h4 hc0 hc1 x0 x1 x2 xo = k2_pay2 x0 x1 x2 xo := by
  unfold out2_B_3
  rw [View.read_writes_eq_canon _ _ _ (cover2_B_3 c i a1 h1 a2 h2 a3 h3 a4 h4 hc0 hc1 x0 x1 x2 xo)]
  unfold kernelRun2_B
  dsimp only
  rw [View.canon_unit_zero zeros2]
  simp only [View.readAt_eq_ld, h1.read_unread, h2.read_unread, h3.read_unread, h4.read_unread,
    View.ld_unit_zero (S := S2000x16) zeros2, View.ld_unit_zero (S := S2000x1) zeros2, View.ld_unit_zero (S := S1x16) zeros2]

/-- The last point: the same accumulation, read back and scaled. -/
theorem last_point_leaves (c : Dev nD) (i : grid2.Coords) (a1 : Memref sig .tc .vmem S2000x16 .f32) (h1 : a1.IsWhole)
    (a2 : Memref sig .tc .vmem S2000x1 .f32) (h2 : a2.IsWhole) (a3 : Memref sig .tc .vmem S1x16 .f32) (h3 : a3.IsWhole)
    (a4 : Memref sig .tc .vmem S1x16 .f32) (h4 : a4.IsWhole) (hc0 : ¬cond2_0 i) (hc1 : cond2_1 i)
    (x0 : Vec F S2000x16 .f32) (x1 : Vec F S2000x1 .f32) (x2 : Vec F S1x16 .f32) (xo : Vec F S1x16 .f32) :
    out2_C_3 c i a1 h1 a2 h2 a3 h3 a4 h4 hc0 hc1 x0 x1 x2 xo = k2_pay3 (k2_pay2 x0 x1 x2 xo) := by
  unfold out2_C_3
  rw [View.read_writes_eq_canon _ _ _ (cover2_C_3 c i a1 h1 a2 h2 a3 h3 a4 h4 hc0 hc1 x0 x1 x2 xo)]
  unfold kernelRun2_C
  dsimp only
  sl_unfold_words
  rw [View.canon_cons_unit_zero (S := S1x16) zeros2, View.readCov_unit_zero (S := S1x16) _ zeros2]
  simp only [View.readAt_eq_ld, h1.read_unread, h2.read_unread, h3.read_unread, h4.read_unread,
    View.ld_unit_zero (S := S2000x16) zeros2, View.ld_unit_zero (S := S2000x1) zeros2, View.ld_unit_zero (S := S1x16) zeros2]

end Pieces

/-! ## The payloads at an index, over the extended reals -/

open Idealize.ShloMosaic.ValueIdx

/-- The zero block holds the float word of zero. -/
theorem zero_block_apply (j : Fin 16) : k2_pay1 (F := Ideal) (ix2 (0 : Fin 1) j) = 0 :=
  Ideal.ofBits_zero_f32

/-- What a block of 2000 rows contributes at column `j`: the sum over its rows of the row's entry times the row's
    norm plus the bias entry. -/
def blockColumnSum (x0 : Vec Ideal S2000x16 .f32) (x1 : Vec Ideal S2000x1 .f32) (x2 : Vec Ideal S1x16 .f32) (j : Fin 16) : EReal :=
  ∑ r : Fin 2000, (x0 (ix2 r j) * x1 (ix2 r (0 : Fin 1)) + x2 (ix2 (0 : Fin 1) j))

/-- The accumulating store at column `j`: the old entry plus the block's contribution. -/
theorem accumulate_apply (x0 : Vec Ideal S2000x16 .f32) (x1 : Vec Ideal S2000x1 .f32) (x2 xo : Vec Ideal S1x16 .f32) (j : Fin 16) :
    k2_pay2 (F := Ideal) x0 x1 x2 xo (ix2 (0 : Fin 1) j) = xo (ix2 (0 : Fin 1) j) + blockColumnSum x0 x1 x2 j := by
  unfold k2_pay2 blockColumnSum
  simp only [shapeCast_self]
  refine congrArg (xo (ix2 (0 : Fin 1) j) + ·) ?_
  refine (shapeCast_a_1a_apply _ _ (0 : Fin 1) j).trans ?_
  refine (Cert.LibKeepdims.multiReduction_add_cols _ _ _ _ _ j).trans ?_
  refine Finset.sum_congr rfl fun r _ => ?_
  exact congrArg₂ (fun p q => x0 (ix2 r j) * p + q) (Cert.LibKeepdims.broadcastTo_a1_ab_apply x1 _ r j)
    (broadcastTo_1b_ab_apply x2 _ r j)

/-- The scaling store at column `j`: the entry times `1/100000`. -/
theorem scale_apply (v : Vec Ideal S1x16 .f32) (j : Fin 16) :
    k2_pay3 (F := Ideal) v (ix2 (0 : Fin 1) j) = v (ix2 (0 : Fin 1) j) * (((1 / 100000 : ℝ)) : EReal) := by
  unfold k2_pay3
  simp only [shapeCast_self]
  exact congrArg (v (ix2 (0 : Fin 1) j) * ·) (IdealRules.named_const.ideal_named_scalar _ _ _ _ rfl)

/-! ## The windows' blocks, entry by entry -/

variable (V : (c : Dev nD) → (b : Ref sig .tc) → Buf (Elt Ideal) ((c : Thread nD τ).loc b))

/-- Where the three input windows sit at point `t`: block `t` of the rows, column block 0; the bias row's only block. -/
theorem block_indices : ∀ t : Fin cfg2.N,
    (win2_0.index t 0 = t.val ∧ win2_0.index t 1 = 0) ∧ (win2_1.index t 0 = t.val ∧ win2_1.index t 1 = 0)
      ∧ (win2_2.index t 0 = 0 ∧ win2_2.index t 1 = 0) ∧ (win2_3.index t 0 = 0 ∧ win2_3.index t 1 = 0) :=
  (by decide +kernel : ∀ t : Fin grid2.N, _)

/-- Window 0 at point `t` holds, at `(r, j)`, the entry `(2000·t + r, j)` of the summed messages. -/
theorem messages_block_apply (c : Dev nD) (t : Fin cfg2.N) (r : Fin 2000) (j : Fin 16) (hr : t.val * 2000 + r.val < 100000) :
    (iblk2 V c 0 t : Vec Ideal S2000x16 .f32) (ix2 r j) = V c main_v39 (ix2 (⟨t.val * 2000 + r.val, hr⟩ : Fin 100000) j) := by
  have hi := (block_indices t).1
  unfold iblk2
  rw [View.read_apply]
  show V c main_v39 _ = V c main_v39 _
  congr 1
  funext a
  apply Fin.ext
  match a with
  | ⟨0, _⟩ => show win2_0.index t 0 * 2000 + 1 * r.val = t.val * 2000 + r.val; rw [hi.1]; omega
  | ⟨1, _⟩ => show win2_0.index t 1 * 16 + 1 * j.val = j.val; rw [hi.2]; omega

/-- Window 1 at point `t` holds, at `(r, 0)`, the norm of node `2000·t + r`. -/
theorem norms_block_apply (c : Dev nD) (t : Fin cfg2.N) (r : Fin 2000) (hr : t.val * 2000 + r.val < 100000) :
    (iblk2 V c 1 t : Vec Ideal S2000x1 .f32) (ix2 r (0 : Fin 1)) = V c main_v16 (ix2 (⟨t.val * 2000 + r.val, hr⟩ : Fin 100000) (0 : Fin 1)) := by
  have hi := (block_indices t).2.1
  unfold iblk2
  rw [View.read_apply]
  show V c main_v16 _ = V c main_v16 _
  congr 1
  funext a
  apply Fin.ext
  match a with
  | ⟨0, _⟩ => show win2_1.index t 0 * 2000 + 1 * r.val = t.val * 2000 + r.val; rw [hi.1]; omega
  | ⟨1, _⟩ => show win2_1.index t 1 * 1 + 1 * 0 = 0; rw [hi.2]

/-- Window 2 holds the bias row at every point. -/
theorem bias_block_apply (c : Dev nD) (t : Fin cfg2.N) (j : Fin 16) :
    (iblk2 V c 2 t : Vec Ideal S1x16 .f32) (ix2 (0 : Fin 1) j) = V c main_v40 (ix2 (0 : Fin 1) j) := by
  have hi := (block_indices t).2.2.1
  unfold iblk2
  rw [View.read_apply]
  show V c main_v40 _ = V c main_v40 _
  congr 1
  funext a
  apply Fin.ext
  match a with
  | ⟨0, _⟩ => show win2_2.index t 0 * 1 + 1 * 0 = 0; rw [hi.1]
  | ⟨1, _⟩ => show win2_2.index t 1 * 16 + 1 * j.val = j.val; rw [hi.2]; omega

/-! ## The running sum -/

open Cert.GraphConv in
/-- Entry `(k, j)` of the closed second layer, for any natural `k` (zero past the last row). -/
def closedEntry (c : Dev nD) (j : Fin 16) (k : ℕ) : EReal :=
  if h : k < 100000 then closeLayer (V c main_v39) (V c main_v16) (V c main_v40) (ix2 (⟨k, h⟩ : Fin 100000) j) else 0

/-- A block whose three windows hold rows `2000·t … 2000·t + 1999` of the messages and of the norms, and the bias
    row, contributes at column `j` the closed entries of those rows. -/
theorem block_sum (c : Dev nD) (t : Fin cfg2.N) (j : Fin 16) (x0 : Vec Ideal S2000x16 .f32) (x1 : Vec Ideal S2000x1 .f32)
    (x2 : Vec Ideal S1x16 .f32)
    (e0 : ∀ (r : Fin 2000) (hr : t.val * 2000 + r.val < 100000),
      x0 (ix2 r j) = V c main_v39 (ix2 (⟨t.val * 2000 + r.val, hr⟩ : Fin 100000) j))
    (e1 : ∀ (r : Fin 2000) (hr : t.val * 2000 + r.val < 100000),
      x1 (ix2 r (0 : Fin 1)) = V c main_v16 (ix2 (⟨t.val * 2000 + r.val, hr⟩ : Fin 100000) (0 : Fin 1)))
    (e2 : x2 (ix2 (0 : Fin 1) j) = V c main_v40 (ix2 (0 : Fin 1) j)) :
    blockColumnSum x0 x1 x2 j = ∑ r ∈ Finset.range 2000, closedEntry V c j (t.val * 2000 + r) := by
  unfold blockColumnSum
  have hN : t.val < 50 := lt_of_lt_of_eq t.isLt (show cfg2.N = 50 from N_2)
  rw [← Fin.sum_univ_eq_sum_range (fun r => closedEntry V c j (t.val * 2000 + r)) 2000]
  refine Finset.sum_congr rfl fun r _ => ?_
  have hr : t.val * 2000 + r.val < 100000 := by have := r.isLt; omega
  rw [e0 r hr, e1 r hr, e2]
  unfold closedEntry
  rw [dif_pos hr]
  rfl

/-- The block of point `t` is such a block. -/
theorem block_sum_at (c : Dev nD) (t : Fin cfg2.N) (j : Fin 16) :
    blockColumnSum (iblk2 V c 0 t) (iblk2 V c 1 t) (iblk2 V c 2 t) j
      = ∑ r ∈ Finset.range 2000, closedEntry V c j (t.val * 2000 + r) :=
  block_sum V c t j (iblk2 V c 0 t) (iblk2 V c 1 t) (iblk2 V c 2 t) (fun r hr => messages_block_apply V c t r j hr)
    (fun r hr => norms_block_apply V c t r hr) (bias_block_apply V c t j)

/-- After point `n < 49` the accumulator holds, at column `j`, the closed entries of the first `2000·(n + 1)` rows,
    summed run by run. -/
theorem running_sum (c : Dev nD) (j : Fin 16) : ∀ (n : ℕ) (h : n < cfg2.N), n < 49 →
    outsAt2 V c n h (ix2 (0 : Fin 1) j)
      = ∑ i ∈ Finset.range (n + 1), ∑ r ∈ Finset.range 2000, closedEntry V c j (i * 2000 + r) := by
  intro n
  induction n with
  | zero =>
    intro h _
    have e := outsAt2_A V c ⟨0, h⟩ (Nat.zero_mod _) (by dsimp only; omega)
    dsimp only at e
    rw [e, first_point_leaves, accumulate_apply, zero_block_apply, zero_add, block_sum_at V c ⟨0, h⟩ j,
      Finset.sum_range_one]
  | succ n ih =>
    intro h h49
    have h0 : ¬(⟨n + 1, h⟩ : Fin cfg2.N).val % 50 = 0 := by dsimp only; omega
    have h1 : ¬(⟨n + 1, h⟩ : Fin cfg2.N).val % 50 = 49 := by dsimp only; omega
    have e := outsAt2_B V c ⟨n + 1, h⟩ h0 h1
    dsimp only at e
    rw [e, middle_point_leaves, accumulate_apply, block_sum_at V c ⟨n + 1, h⟩ j, Finset.sum_range_succ _ (n + 1)]
    refine congrArg (· + _) ?_
    exact ih (Nat.lt_of_succ_lt h) (by omega)

/-- Fifty runs of 2000 rows are the 100000 rows. -/
theorem runs_eq_rows (c : Dev nD) (j : Fin 16) :
    ∑ i ∈ Finset.range 50, ∑ r ∈ Finset.range 2000, closedEntry V c j (i * 2000 + r)
      = ∑ r : Fin 100000, Cert.GraphConv.closeLayer (V c main_v39) (V c main_v16) (V c main_v40) (ix2 r j) := by
  rw [← Cert.LibSumSplit.sum_range_mul (closedEntry V c j) 50 2000, show 50 * 2000 = 100000 from rfl,
    ← Fin.sum_univ_eq_sum_range (closedEntry V c j) 100000]
  refine Finset.sum_congr rfl fun r _ => ?_
  unfold closedEntry
  rw [dif_pos r.isLt]

/-- After the last point the accumulator holds the mean. -/
theorem last_point_holds (c : Dev nD) (t : Fin cfg2.N) (h49 : t.val = 49) :
    outsAt2 V c t.val t.isLt
      = Cert.GraphConv.pool (((1 / 100000 : ℝ) : EReal)) (V c main_v39) (V c main_v16) (V c main_v40) := by
  funext y
  obtain ⟨u, j, rfl⟩ : ∃ (u : Fin 1) (j : Fin 16), y = ix2 u j := ⟨y 0, y 1, eq_ix2 y⟩
  obtain rfl : u = 0 := Subsingleton.elim _ _
  have h0 : ¬t.val % 50 = 0 := by omega
  have h1 : t.val % 50 = 49 := by omega
  rw [outsAt2_C V c t h0 h1, last_point_leaves, scale_apply, accumulate_apply, block_sum_at V c t j]
  have hp : t.val - 1 = 48 := by omega
  rw [running_sum V c j (t.val - 1) (Nat.lt_of_le_of_lt (Nat.sub_le _ _) t.isLt) (by omega), hp, h49,
    ← Finset.sum_range_succ (fun i => ∑ r ∈ Finset.range 2000, closedEntry V c j (i * 2000 + r)) 49, runs_eq_rows]
  rfl

/-! ## From the accumulator's buffer to its array -/

/-- The last grid point. -/
abbrev lastPoint : Fin cfg2.N := ⟨49, by rw [show cfg2.N = 50 from N_2]; decide⟩

/-- The one write-back, at the last point, writes the mean: the accumulator's block at zero offsets is its whole array. -/
theorem written_back (c : Dev nD) (t : Fin cfg2.N) (hf : (cfg2.win 3).flush t = true) :
    (dat2 V c).flushed 3 t = ((cfg2.win 3).blk t).view.read (Elt Ideal)
      (Cert.GraphConv.pool (((1 / 100000 : ℝ) : EReal)) (V c main_v39) (V c main_v16) (V c main_v40)) := by
  have hN : t.val < 50 := lt_of_lt_of_eq t.isLt (show cfg2.N = 50 from N_2)
  have h49 : t.val = 49 := by have := (flush2_3 t).mp hf; omega
  show (cfg2.win 3).cut (grid2.coords t) ((dat2 V c).after 3 t) = _
  rw [after2_3, last_point_holds V c t h49]
  have hi := (block_indices t).2.2.2
  have hz' : (fun a => win2_3.index t a * main_v41.ty.shape.size a) = fun _ => 0 := funext fun a => by
    match a with
    | ⟨0, _⟩ => show win2_3.index t 0 * _ = 0; rw [hi.1, Nat.zero_mul]
    | ⟨1, _⟩ => show win2_3.index t 1 * _ = 0; rw [hi.2, Nat.zero_mul]
  exact (Memref.read_access_unit_zero (Elt Ideal) main_v41 hz' (fun a => by rw [congrFun hz' a]; simp)
    (Cert.GraphConv.pool (((1 / 100000 : ℝ) : EReal)) (V c main_v39) (V c main_v16) (V c main_v40))).symm

/-- The pooled row the region leaves: the mean over the 100000 nodes of the closed second layer. -/
theorem region2_value (c : Dev nD) :
    (dat2 (F := Ideal) V c).arrAt 3 cfg2.N
      = Cert.GraphConv.pool (((1 / 100000 : ℝ) : EReal)) (V c main_v39) (V c main_v16) (V c main_v40) :=
  (dat2 V c).arrAt_eq_of_cover 3 _ (written_back V c) fun i =>
    ⟨lastPoint, (flush2_3 lastPoint).mpr rfl, by
      show i ∈ ((View.whole main_v41).slice (win2_3.rect lastPoint)).set
      rw [View.set_slice_whole, Rect.mem_set_unit]
      intro a
      have h0 : (i 0 : Nat) < 1 := (i 0).isLt
      have h1 : (i 1 : Nat) < 16 := (i 1).isLt
      match a with
      | ⟨0, _⟩ =>
        show win2_3.index lastPoint 0 * win2_3.size 0 ≤ (i 0 : Nat)
          ∧ (i 0 : Nat) < win2_3.index lastPoint 0 * win2_3.size 0 + win2_3.xsize (grid2.coords lastPoint) 0
        rw [show win2_3.index lastPoint 0 * win2_3.size 0 = 0 from by decide +kernel,
          show win2_3.xsize (grid2.coords lastPoint) 0 = 1 from by decide +kernel]
        omega
      | ⟨1, _⟩ =>
        show win2_3.index lastPoint 1 * win2_3.size 1 ≤ (i 1 : Nat)
          ∧ (i 1 : Nat) < win2_3.index lastPoint 1 * win2_3.size 1 + win2_3.xsize (grid2.coords lastPoint) 1
        rw [show win2_3.index lastPoint 1 * win2_3.size 1 = 0 from by decide +kernel,
          show win2_3.xsize (grid2.coords lastPoint) 1 = 16 from by decide +kernel]
        omega⟩

end Cert.KernelIdeal.Gen
end
-- ==== Proof.KernelValue.lean ====
/-
  The idealized kernel's result as a function of its arguments.

  The run ends with the result buffer at the last fold of the boundary contents. Reading that fold back: the last
  stretch lays region 2's pooled row as a vector; region 2 pools the second layer's summed messages, which the third
  stretch gathers and sums from region 1's projection; region 1 projects the first layer's summed messages, which the
  second stretch gathers and sums from region 0's projection; region 0 projects the features scaled by the degree norms
  the first stretch computes. Every other buffer a step reads (the arguments, the two norm columns) reaches it unchanged:
  no stretch writes it, and a region leaves its input arrays as it found them.
-/
import proofs.«143258_j58411555225950_1_alg».proof.Proof.Gen.KernelIdeal.Frame
import proofs.«143258_j58411555225950_1_alg».proof.Proof.KerResult
import proofs.«143258_j58411555225950_1_alg».proof.Proof.KernelStretch
import proofs.«143258_j58411555225950_1_alg».proof.Proof.Spec
import proofs.«143258_j58411555225950_1_alg».proof.Proof.Region0
import proofs.«143258_j58411555225950_1_alg».proof.Proof.Region1
import proofs.«143258_j58411555225950_1_alg».proof.Proof.Region2

set_option maxRecDepth 16384

noncomputable section

namespace Cert.KernelIdeal.Gen

open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-! ## The buffers each step reads, traced back to the launch memory -/

/-- The source-degree norm column, as region 0 finds it. -/
theorem V1_v15 : V1 m ρ c main_v15
    = (shapeCast S100000x1 (Cert.KerSide.degNorm (m ((c : Thread nD τ).loc main_arg1))) shapeCasts_S100000_S100000x1 : FVec Ideal S100000x1 .f32) :=
  ops0_v15 (W0 m ρ c)

/-- The target-degree norm column after the first stretch. -/
theorem W1_v16 : W1 m ρ c (Proc.devRef .tc main_v16)
    = (shapeCast S100000x1 (Cert.KerSide.degNorm (m ((c : Thread nD τ).loc main_arg2))) shapeCasts_S100000_S100000x1 : FVec Ideal S100000x1 .f32) :=
  ops0_v16 (W0 m ρ c)

theorem V1_arg0 : V1 m ρ c main_arg0 = m ((c : Thread nD τ).loc main_arg0) := ops0_keep_arg0 (W0 m ρ c)
theorem V1_arg3 : V1 m ρ c main_arg3 = m ((c : Thread nD τ).loc main_arg3) := ops0_keep_arg3 (W0 m ρ c)
theorem W1_arg1 : W1 m ρ c (Proc.devRef .tc main_arg1) = m ((c : Thread nD τ).loc main_arg1) := ops0_keep_arg1 (W0 m ρ c)
theorem W1_arg2 : W1 m ρ c (Proc.devRef .tc main_arg2) = m ((c : Thread nD τ).loc main_arg2) := ops0_keep_arg2 (W0 m ρ c)
theorem W1_arg4 : W1 m ρ c (Proc.devRef .tc main_arg4) = m ((c : Thread nD τ).loc main_arg4) := ops0_keep_arg4 (W0 m ρ c)
theorem W1_arg5 : W1 m ρ c (Proc.devRef .tc main_arg5) = m ((c : Thread nD τ).loc main_arg5) := ops0_keep_arg5 (W0 m ρ c)
theorem W1_arg6 : W1 m ρ c (Proc.devRef .tc main_arg6) = m ((c : Thread nD τ).loc main_arg6) := ops0_keep_arg6 (W0 m ρ c)

/-! ### Through region 0 -/

theorem W2_v17 : W2 m ρ c (Proc.devRef .tc main_v17)
    = Cert.GraphConv.proj0 (V1 m ρ c main_arg0) (V1 m ρ c main_v15) (V1 m ρ c main_arg3) :=
  (W2_arr m ρ c 3).trans (region0_value (V1 m ρ) c)

theorem W2_v15 : W2 m ρ c (Proc.devRef .tc main_v15) = V1 m ρ c main_v15 :=
  (W2_arr m ρ c 1).trans (((dat0 (V1 m ρ) c).arrAt_in 1 rfl _).trans (A_eq0 (V1 m ρ) c 1))
theorem W2_v16 : W2 m ρ c (Proc.devRef .tc main_v16) = W1 m ρ c (Proc.devRef .tc main_v16) := W2_of_ne m ρ c main_v16 (by decide)
theorem W2_arg1 : W2 m ρ c (Proc.devRef .tc main_arg1) = W1 m ρ c (Proc.devRef .tc main_arg1) := W2_of_ne m ρ c main_arg1 (by decide)
theorem W2_arg2 : W2 m ρ c (Proc.devRef .tc main_arg2) = W1 m ρ c (Proc.devRef .tc main_arg2) := W2_of_ne m ρ c main_arg2 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)

/-! ### Through the second stretch -/

theorem V3_v27 : V3 m ρ c main_v27
    = Cert.KerSide.sumEdges64 (W2 m ρ c (Proc.devRef .tc main_v17)) (W2 m ρ c (Proc.devRef .tc main_arg1)) (W2 m ρ c (Proc.devRef .tc main_arg2)) :=
  ops1_v27 (W2 m ρ c)
theorem V3_v28 : V3 m ρ c main_v28
    = (shapeCast S1x64 (W2 m ρ c (Proc.devRef .tc main_arg4) : FVec Ideal S64 .f32) shapeCasts_S64_S1x64 : FVec Ideal S1x64 .f32) :=
  ops1_v28 (W2 m ρ c)
theorem V3_v15 : V3 m ρ c main_v15 = W2 m ρ c (Proc.devRef .tc main_v15) := ops1_keep_v15 (W2 m ρ c)
theorem V3_v16 : V3 m ρ c main_v16 = W2 m ρ c (Proc.devRef .tc main_v16) := ops1_keep_v16 (W2 m ρ c)
theorem V3_arg5 : V3 m ρ c main_arg5 = W2 m ρ c (Proc.devRef .tc main_arg5) := ops1_keep_arg5 (W2 m ρ c)
theorem W3_arg1 : W3 m ρ c (Proc.devRef .tc main_arg1) = W2 m ρ c (Proc.devRef .tc main_arg1) := ops1_keep_arg1 (W2 m ρ c)
theorem W3_arg2 : W3 m ρ c (Proc.devRef .tc main_arg2) = W2 m ρ c (Proc.devRef .tc main_arg2) := ops1_keep_arg2 (W2 m ρ c)
theorem W3_arg6 : W3 m ρ c (Proc.devRef .tc main_arg6) = W2 m ρ c (Proc.devRef .tc main_arg6) := ops1_keep_arg6 (W2 m ρ c)

/-! ### Through region 1 -/

theorem W4_v29 : W4 m ρ c (Proc.devRef .tc main_v29)
    = Cert.GraphConv.proj1 (V3 m ρ c main_v27) (V3 m ρ c main_v16) (V3 m ρ c main_v15) (V3 m ρ c main_v28) (V3 m ρ c main_arg5) :=
  (W4_arr m ρ c 5).trans (region1_value (V3 m ρ) c)
theorem W4_v16 : W4 m ρ c (Proc.devRef .tc main_v16) = V3 m ρ c main_v16 :=
  (W4_arr m ρ c 1).trans (((dat1 (V3 m ρ) c).arrAt_in 1 rfl _).trans (A_eq1 (V3 m ρ) c 1))
theorem W4_arg1 : W4 m ρ c (Proc.devRef .tc main_arg1) = W3 m ρ c (Proc.devRef .tc main_arg1) := W4_of_ne m ρ c main_arg1 (by decide)
theorem W4_arg2 : W4 m ρ c (Proc.devRef .tc main_arg2) = W3 m ρ c (Proc.devRef .tc main_arg2) := W4_of_ne m ρ c main_arg2 (by decide)
theorem W4_arg6 : W4 m ρ c (Proc.devRef .tc main_arg6) = W3 m ρ c (Proc.devRef .tc main_arg6) := W4_of_ne m ρ c main_arg6 (by decide)

/-! ### Through the third stretch -/

theorem V5_v39 : V5 m ρ c main_v39
    = Cert.KerSide.sumEdges16 (W4 m ρ c (Proc.devRef .tc main_v29)) (W4 m ρ c (Proc.devRef .tc main_arg1)) (W4 m ρ c (Proc.devRef .tc main_arg2)) :=
  ops2_v39 (W4 m ρ c)
theorem V5_v40 : V5 m ρ c main_v40
    = (shapeCast S1x16 (W4 m ρ c (Proc.devRef .tc main_arg6) : FVec Ideal S16 .f32) shapeCasts_S16_S1x16 : FVec Ideal S1x16 .f32) :=
  ops2_v40 (W4 m ρ c)
theorem V5_v16 : V5 m ρ c main_v16 = W4 m ρ c (Proc.devRef .tc main_v16) := ops2_keep_v16 (W4 m ρ c)

/-! ### Through region 2 and the last stretch -/

theorem W6_v41 : W6 m ρ c (Proc.devRef .tc main_v41)
    = Cert.GraphConv.pool (((1 / 100000 : ℝ) : EReal)) (V5 m ρ c main_v39) (V5 m ρ c main_v16) (V5 m ρ c main_v40) :=
  (W6_arr m ρ c 3).trans (region2_value (V5 m ρ) c)

theorem W7_v42_eq : W7 m ρ c (Proc.devRef .tc main_v42)
    = (shapeCast S16 (W6 m ρ c (Proc.devRef .tc main_v41) : FVec Ideal S1x16 .f32) shapeCasts_S1x16_S16 : FVec Ideal S16 .f32) :=
  ops3_v42 (W6 m ρ c)

/-! ## The result -/

/-- The result buffer ends at the kernel program's formula of the launch memory's arguments. -/
theorem W7_v42 : W7 m ρ c (Proc.devRef .tc main_v42)
    = Cert.KerSide.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  rw [W7_v42_eq, W6_v41, V5_v39, V5_v40, V5_v16, W4_v29, W4_v16, W4_arg1, W4_arg2, W4_arg6,
    V3_v27, V3_v28, V3_v15, V3_v16, V3_arg5, W3_arg1, W3_arg2, W3_arg6,
    W2_v17, W2_v15, W2_v16, W2_arg1, W2_arg2, W2_arg4, W2_arg5, W2_arg6,
    V1_v15, W1_v16, V1_arg0, V1_arg3, W1_arg1, W1_arg2, W1_arg4, W1_arg5, W1_arg6]
  rfl

end Cert.KernelIdeal.Gen

end
-- ==== Proof.RefTerm.lean ====
/-
  The reference program's result as a function of its arguments, written as the composition its source spells:
  the degree norms, the two layers (scale, project, sum along the edges, scale, add the bias), the rectifier between
  them and the mean at the end. Each definition is the host operations of one source line applied to their operands,
  in the program's own spelling, so that the program's run states its result by this name.
-/
import proofs.«143258_j58411555225950_1_alg».proof.Proof.Gen.ReferenceIdeal
import Idealize.ShloMosaic.PureOps.Ideal

noncomputable section

namespace Cert.RefSide

open Cert.ReferenceIdeal Cert.ReferenceIdeal.Gen Idealize.ShloMosaic

/-- The degree norm of every node: the number of edges whose end (`idx`) is the node, clamped below at one, to the
    power minus one half. -/
def degNorm (idx : IVec S1600000 32) : FVec Ideal S100000 .f32 :=
  Host.powf
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

/-- The edge sources as gather indices: a negative index counts from the end. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `P` at the edge sources, summed into the rows of the edge targets (64 columns). -/
def sumEdges64 (P : FVec Ideal S100000x64 .f32) (src dst : IVec S1600000 32) :
    FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 P (wrapIdx src))

/-- The same with 16 columns. -/
def sumEdges16 (P : FVec Ideal S100000x16 .f32) (src dst : IVec S1600000 32) :
    FVec Ideal S100000x16 .f32 :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 dst)
    (Host.gather gather_S100000x16_S1600000x1_S1600000x16_1_0_n_n_0_1_116 P (wrapIdx src))

/-- The first layer's projection: the features scaled row by row by the source-degree norm, times the weights. -/
def stage0 (x : FVec Ideal S100000x128 .f32) (nOut : FVec Ideal S100000 .f32)
    (w : FVec Ideal S128x64 .f32) : FVec Ideal S100000x64 .f32 :=
  Host.dotGeneral dot_S100000x128_S128x64_S100000x64_1_0_0_1_n_n none
    (mulf x (broadcastInDim S100000x128 ![0, 1] bcast_S100000x1_S100000x128_0_1
      (broadcastInDim S100000x1 ![0] bcast_S100000_S100000x1_0 nOut))) w

/-- The first layer's closing step (64 columns): scale row by row by the target-degree norm, add the bias row. -/
def close64 (a : FVec Ideal S100000x64 .f32) (nIn : FVec Ideal S100000 .f32)
    (b : FVec Ideal S64 .f32) : FVec Ideal S100000x64 .f32 :=
  addf
    (mulf a (broadcastInDim S100000x64 ![0, 1] bcast_S100000x1_S100000x64_0_1
      (broadcastInDim S100000x1 ![0] bcast_S100000_S100000x1_0 nIn)))
    (broadcastInDim S100000x64 ![0, 1] bcast_S1x64_S100000x64_0_1 (broadcastInDim S1x64 ![1] bcast_S64_S1x64_1 b))

/-- The rectifier and the second layer's projection. -/
def stage1 (a : FVec Ideal S100000x64 .f32) (nIn nOut : FVec Ideal S100000 .f32)
    (b : FVec Ideal S64 .f32) (w : FVec Ideal S64x16 .f32) :
    FVec Ideal S100000x16 .f32 :=
  Host.dotGeneral dot_S100000x64_S64x16_S100000x16_1_0_0_1_n_n none
    (mulf
      (maximumf (close64 a nIn b) (broadcastInDim S100000x64 ![] bcast_S_S100000x64 (constant S_ .f32 0x00000000#32)))
      (broadcastInDim S100000x64 ![0, 1] bcast_S100000x1_S100000x64_0_1
        (broadcastInDim S100000x1 ![0] bcast_S100000_S100000x1_0 nOut))) w

/-- The second layer's closing step (16 columns). -/
def close16 (a : FVec Ideal S100000x16 .f32) (nIn : FVec Ideal S100000 .f32)
    (b : FVec Ideal S16 .f32) : FVec Ideal S100000x16 .f32 :=
  addf
    (mulf a (broadcastInDim S100000x16 ![0, 1] bcast_S100000x1_S100000x16_0_1
      (broadcastInDim S100000x1 ![0] bcast_S100000_S100000x1_0 nIn)))
    (broadcastInDim S100000x16 ![0, 1] bcast_S1x16_S100000x16_0_1 (broadcastInDim S1x16 ![1] bcast_S16_S1x16_1 b))

/-- The mean over all nodes: the column sums divided by the number of nodes. -/
def stage2 (a : FVec Ideal S100000x16 .f32) (nIn : FVec Ideal S100000 .f32)
    (b : FVec Ideal S16 .f32) : FVec Ideal S16 .f32 :=
  Host.divf
    (Host.reduceAdd (close16 a nIn b) (constant S_ .f32 0x00000000#32) reducesTo_S100000x16_S16_d0 h_S_)
    (broadcastInDim S16 ![] bcast_S_S16 (constant S_ .f32 0x47C35000#32))

/-- The reference's result. -/
def result (x : FVec Ideal S100000x128 .f32) (src dst : IVec S1600000 32)
    (w1 : FVec Ideal S128x64 .f32) (b1 : FVec Ideal S64 .f32)
    (w2 : FVec Ideal S64x16 .f32) (b2 : FVec Ideal S16 .f32) :
    FVec Ideal S16 .f32 :=
  stage2
    (sumEdges16 (stage1 (sumEdges64 (stage0 x (degNorm src) w1) src dst) (degNorm dst) (degNorm src) b1 w2) src dst)
    (degNorm dst) b2

end Cert.RefSide

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefRun.lean ====
/-
  The reference program's run, with its result named as a function of the arguments.

  The program is a straight line of host operations, so its run is the fold of the operations' results over the
  contents the buffers start with. The line is cut into six stretches, one per stage of the network (the degree
  norms; the first projection; the first sum along the edges; the closing step, the rectifier and the second
  projection; the second sum along the edges; the closing step and the mean). For each stretch, and for ANY contents
  of the buffers before it, the buffer the stretch is there to fill holds afterwards the stage's function of the
  buffers the stretch reads, and the buffers later stretches read (the arguments and the degree norms) are as before.
  Chaining the six facts gives the result as the composition of the stages, which is how `result` is defined, and
  gives each argument unchanged.
-/
import proofs.«143258_j58411555225950_1_alg».proof.Proof.RefTerm
import proofs.«143258_j58411555225950_1_alg».proof.Proof.LibAfter
import proofs.«143258_j58411555225950_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo
open Cert.LibAfter

/-! ## The line, in six stretches -/

section Line

variable {F : FTy → Type} [FloatOps F]

/-- The two degree norms: for the edge sources and for the edge targets, the count of edges per node (a sum of ones
    along the edges), clamped below at one, to the power minus one half. -/
abbrev normOps : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (maximumf : (⟨S100000, .f32⟩ : BufTy).Contents (Elt F) → (⟨S100000, .f32⟩ : BufTy).Contents (Elt F) → (⟨S100000, .f32⟩ : BufTy).Contents (Elt F)),
    nullary main_cst_3 (constant S_ .f32 0xBF000000#32),
    unary main_cst_3 main_v9 (broadcastInDim S100000 ![] bcast_S_S100000 : (⟨S_, .f32⟩ : BufTy).Contents (Elt F) → (⟨S100000, .f32⟩ : BufTy).Contents (Elt F)),
    binary main_v8 main_v9 main_v10 (Host.powf : (⟨S100000, .f32⟩ : BufTy).Contents (Elt F) → (⟨S100000, .f32⟩ : BufTy).Contents (Elt F) → (⟨S100000, .f32⟩ : BufTy).Contents (Elt F)),
    nullary main_cst_4 (constant S_ .f32 0x3F800000#32),
    unary main_cst_4 main_v11 (broadcastInDim S100000 ![] bcast_S_S100000 : (⟨S_, .f32⟩ : BufTy).Contents (Elt F) → (⟨S100000, .f32⟩ : BufTy).Contents (Elt F)),
    binary main_v6 main_v11 main_v12 (maximumf : (⟨S100000, .f32⟩ : BufTy).Contents (Elt F) → (⟨S100000, .f32⟩ : BufTy).Contents (Elt F) → (⟨S100000, .f32⟩ : BufTy).Contents (Elt F)),
    nullary main_cst_5 (constant S_ .f32 0xBF000000#32),
    unary main_cst_5 main_v13 (broadcastInDim S100000 ![] bcast_S_S100000 : (⟨S_, .f32⟩ : BufTy).Contents (Elt F) → (⟨S100000, .f32⟩ : BufTy).Contents (Elt F)),
    binary main_v12 main_v13 main_v14 (Host.powf : (⟨S100000, .f32⟩ : BufTy).Contents (Elt F) → (⟨S100000, .f32⟩ : BufTy).Contents (Elt F) → (⟨S100000, .f32⟩ : BufTy).Contents (Elt F)) ]

/-- The first layer's projection: the features scaled row by row by the source-degree norm, times the weights. -/
abbrev proj0Ops : List (HloOp τ sig (Elt F)) :=
  [ unary main_v10 main_v15 (broadcastInDim S100000x1 ![0] bcast_S100000_S100000x1_0 : (⟨S100000, .f32⟩ : BufTy).Contents (Elt F) → (⟨S100000x1, .f32⟩ : BufTy).Contents (Elt F)),
    unary main_v15 main_v16 (broadcastInDim S100000x128 ![0, 1] bcast_S100000x1_S100000x128_0_1 : (⟨S100000x1, .f32⟩ : BufTy).Contents (Elt F) → (⟨S100000x128, .f32⟩ : BufTy).Contents (Elt F)),
    binary main_arg0 main_v16 main_v17 (mulf : (⟨S100000x128, .f32⟩ : BufTy).Contents (Elt F) → (⟨S100000x128, .f32⟩ : BufTy).Contents (Elt F) → (⟨S100000x128, .f32⟩ : BufTy).Contents (Elt F)),
    binary main_v17 main_arg3 main_v18 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The first layer's sum along the edges (64 columns): the projected rows at the edge sources, a negative source
    counted from the end, added into the rows of the edge targets. -/
abbrev edges64Ops : List (HloOp τ sig (Elt F)) :=
  [ nullary main_c (constantI S_ 32 0#32),
    unary main_c main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v26 (broadcastInDim S100000x64 ![] bcast_S_S100000x64 : (⟨S_, .f32⟩ : BufTy).Contents (Elt F) → (⟨S100000x64, .f32⟩ : BufTy).Contents (Elt F)),
    unary main_arg2 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The first layer's closing step (scale by the target-degree norm, add the bias), the rectifier (the maximum with
    zero) and the second layer's projection. -/
abbrev layer1Ops : List (HloOp τ sig (Elt F)) :=
  [ unary main_v14 main_v29 (broadcastInDim S100000x1 ![0] bcast_S100000_S100000x1_0 : (⟨S100000, .f32⟩ : BufTy).Contents (Elt F) → (⟨S100000x1, .f32⟩ : BufTy).Contents (Elt F)),
    unary main_v29 main_v30 (broadcastInDim S100000x64 ![0, 1] bcast_S100000x1_S100000x64_0_1 : (⟨S100000x1, .f32⟩ : BufTy).Contents (Elt F) → (⟨S100000x64, .f32⟩ : BufTy).Contents (Elt F)),
    binary main_v28 main_v30 main_v31 (mulf : (⟨S100000x64, .f32⟩ : BufTy).Contents (Elt F) → (⟨S100000x64, .f32⟩ : BufTy).Contents (Elt F) → (⟨S100000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v34) (TRef.of (T := ⟨S100000x64, .f32⟩) main_call0_v0) (TRef.of (T := ⟨S100000x64, .f32⟩) main_v35) maximumf,
    unary main_v10 main_v36 (broadcastInDim S100000x1 ![0] bcast_S100000_S100000x1_0 : (⟨S100000, .f32⟩ : BufTy).Contents (Elt F) → (⟨S100000x1, .f32⟩ : BufTy).Contents (Elt F)),
    unary main_v36 main_v37 (broadcastInDim S100000x64 ![0, 1] bcast_S100000x1_S100000x64_0_1 : (⟨S100000x1, .f32⟩ : BufTy).Contents (Elt F) → (⟨S100000x64, .f32⟩ : BufTy).Contents (Elt F)),
    binary main_v35 main_v37 main_v38 (mulf : (⟨S100000x64, .f32⟩ : BufTy).Contents (Elt F) → (⟨S100000x64, .f32⟩ : BufTy).Contents (Elt F) → (⟨S100000x64, .f32⟩ : BufTy).Contents (Elt F)),
    binary main_v38 main_arg5 main_v39 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- The second layer's sum along the edges (16 columns). -/
abbrev edges16Ops : List (HloOp τ sig (Elt F)) :=
  [ nullary main_c_8 (constantI S_ 32 0#32),
    unary main_c_8 main_v40 (broadcastInDim S1600000 ![] bcast_S_S1600000 : (⟨S_, .i32⟩ : BufTy).Contents (Elt F) → (⟨S1600000, .i32⟩ : BufTy).Contents (Elt F)),
    binary main_arg1 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v42 (broadcastInDim S1600000 ![] bcast_S_S1600000 : (⟨S_, .i32⟩ : BufTy).Contents (Elt F) → (⟨S1600000, .i32⟩ : BufTy).Contents (Elt F)),
    binary main_arg1 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_arg1 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_v39 main_v45 main_v46 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    nullary main_cst_10 (constant S_ .f32 0x00000000#32),
    unary main_cst_10 main_v47 (broadcastInDim S100000x16 ![] bcast_S_S100000x16 : (⟨S_, .f32⟩ : BufTy).Contents (Elt F) → (⟨S100000x16, .f32⟩ : BufTy).Contents (Elt F)),
    unary main_arg2 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)) ]

/-- The second layer's closing step and the mean over the nodes. -/
abbrev meanOps : List (HloOp τ sig (Elt F)) :=
  [ unary main_v14 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x16 ![0, 1] bcast_S100000x1_S100000x16_0_1 : (⟨S100000x1, .f32⟩ : BufTy).Contents (Elt F) → (⟨S100000x16, .f32⟩ : BufTy).Contents (Elt F)),
    binary main_v49 main_v51 main_v52 (mulf : (⟨S100000x16, .f32⟩ : BufTy).Contents (Elt F) → (⟨S100000x16, .f32⟩ : BufTy).Contents (Elt F) → (⟨S100000x16, .f32⟩ : BufTy).Contents (Elt F)),
    unary main_arg6 main_v53 (broadcastInDim S1x16 ![1] bcast_S16_S1x16_1 : (⟨S16, .f32⟩ : BufTy).Contents (Elt F) → (⟨S1x16, .f32⟩ : BufTy).Contents (Elt F)),
    unary main_v53 main_v54 (broadcastInDim S100000x16 ![0, 1] bcast_S1x16_S100000x16_0_1 : (⟨S1x16, .f32⟩ : BufTy).Contents (Elt F) → (⟨S100000x16, .f32⟩ : BufTy).Contents (Elt F)),
    binary main_v52 main_v54 main_v55 (addf : (⟨S100000x16, .f32⟩ : BufTy).Contents (Elt F) → (⟨S100000x16, .f32⟩ : BufTy).Contents (Elt F) → (⟨S100000x16, .f32⟩ : BufTy).Contents (Elt F)),
    nullary main_cst_11 (constant S_ .f32 0x00000000#32),
    binary main_v55 main_cst_11 main_v56 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    nullary main_cst_12 (constant S_ .f32 0x47C35000#32),
    unary main_cst_12 main_v57 (broadcastInDim S16 ![] bcast_S_S16 : (⟨S_, .f32⟩ : BufTy).Contents (Elt F) → (⟨S16, .f32⟩ : BufTy).Contents (Elt F)),
    binary main_v56 main_v57 main_v58 (Host.divf : (⟨S16, .f32⟩ : BufTy).Contents (Elt F) → (⟨S16, .f32⟩ : BufTy).Contents (Elt F) → (⟨S16, .f32⟩ : BufTy).Contents (Elt F)) ]

end Line

/-! ## What each stretch leaves, from any contents before it -/

/-- After the first stretch the source-degree norm is the norm of the edge sources. -/
theorem normOps_src (V : Valuation τ sig (Elt Ideal)) :
    after (normOps (F := Ideal)) V (Proc.devRef .tc main_v10) = degNorm (V (Proc.devRef .tc main_arg1)) := by
  after_results_simp <;> rfl

/-- And the target-degree norm is the norm of the edge targets. -/
theorem normOps_dst (V : Valuation τ sig (Elt Ideal)) :
    after (normOps (F := Ideal)) V (Proc.devRef .tc main_v14) = degNorm (V (Proc.devRef .tc main_arg2)) := by
  after_results_simp <;> rfl

/-- After the second stretch the first projection is `stage0` of the features, the source-degree norm and the weights. -/
theorem proj0Ops_val (V : Valuation τ sig (Elt Ideal)) :
    after (proj0Ops (F := Ideal)) V (Proc.devRef .tc main_v18)
      = stage0 (V (Proc.devRef .tc main_arg0)) (V (Proc.devRef .tc main_v10)) (V (Proc.devRef .tc main_arg3)) := by
  after_results_simp <;> rfl

/-- After the third stretch the projected rows are summed along the edges. -/
theorem edges64Ops_val (V : Valuation τ sig (Elt Ideal)) :
    after (edges64Ops (F := Ideal)) V (Proc.devRef .tc main_v28)
      = sumEdges64 (V (Proc.devRef .tc main_v18)) (V (Proc.devRef .tc main_arg1)) (V (Proc.devRef .tc main_arg2)) := by
  after_results_simp <;> rfl

/-- After the fourth stretch the second projection is `stage1` of the summed rows, the two degree norms, the bias and
    the weights. -/
theorem layer1Ops_val (V : Valuation τ sig (Elt Ideal)) :
    after (layer1Ops (F := Ideal)) V (Proc.devRef .tc main_v39)
      = stage1 (V (Proc.devRef .tc main_v28)) (V (Proc.devRef .tc main_v14)) (V (Proc.devRef .tc main_v10))
          (V (Proc.devRef .tc main_arg4)) (V (Proc.devRef .tc main_arg5)) := by
  after_results_simp <;> rfl

/-- After the fifth stretch the second projection's rows are summed along the edges. -/
theorem edges16Ops_val (V : Valuation τ sig (Elt Ideal)) :
    after (edges16Ops (F := Ideal)) V (Proc.devRef .tc main_v49)
      = sumEdges16 (V (Proc.devRef .tc main_v39)) (V (Proc.devRef .tc main_arg1)) (V (Proc.devRef .tc main_arg2)) := by
  after_results_simp <;> rfl

/-- After the last stretch the result buffer holds `stage2` of the summed rows, the target-degree norm and the bias. -/
theorem meanOps_val (V : Valuation τ sig (Elt Ideal)) :
    after (meanOps (F := Ideal)) V (Proc.devRef .tc main_v58)
      = stage2 (V (Proc.devRef .tc main_v49)) (V (Proc.devRef .tc main_v14)) (V (Proc.devRef .tc main_arg6)) := by
  after_results_simp <;> rfl

/-! ## What each stretch keeps -/

/-- The argument buffers. -/
abbrev argRefs : List (Ref sig .tc) := [main_arg0, main_arg1, main_arg2, main_arg3, main_arg4, main_arg5, main_arg6]

/-- The first stretch writes no argument. -/
theorem normOps_keep (V : Valuation τ sig (Elt Ideal)) :
    ∀ r ∈ argRefs, after (normOps (F := Ideal)) V (Proc.devRef .tc r) = V (Proc.devRef .tc r) := by
  intro r hr
  simp only [argRefs, List.mem_cons, List.not_mem_nil, or_false] at hr
  rcases hr with rfl | rfl | rfl | rfl | rfl | rfl | rfl <;> after_results_simp

/-- The first projection writes neither an argument nor a degree norm. -/
theorem proj0Ops_keep (V : Valuation τ sig (Elt Ideal)) :
    ∀ r ∈ main_v10 :: main_v14 :: argRefs, after (proj0Ops (F := Ideal)) V (Proc.devRef .tc r) = V (Proc.devRef .tc r) := by
  intro r hr
  simp only [argRefs, List.mem_cons, List.not_mem_nil, or_false] at hr
  rcases hr with rfl | rfl | rfl | rfl | rfl | rfl | rfl | rfl | rfl <;> after_results_simp

/-- Nor does the first sum along the edges. -/
theorem edges64Ops_keep (V : Valuation τ sig (Elt Ideal)) :
    ∀ r ∈ main_v10 :: main_v14 :: argRefs, after (edges64Ops (F := Ideal)) V (Proc.devRef .tc r) = V (Proc.devRef .tc r) := by
  intro r hr
  simp only [argRefs, List.mem_cons, List.not_mem_nil, or_false] at hr
  rcases hr with rfl | rfl | rfl | rfl | rfl | rfl | rfl | rfl | rfl <;> after_results_simp

/-- The second projection writes neither an argument nor the target-degree norm. -/
theorem layer1Ops_keep (V : Valuation τ sig (Elt Ideal)) :
    ∀ r ∈ main_v14 :: argRefs, after (layer1Ops (F := Ideal)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

/-- Nor does the second sum along the edges. -/
theorem edges16Ops_keep (V : Valuation τ sig (Elt Ideal)) :
    ∀ r ∈ main_v14 :: argRefs, after (edges16Ops (F := Ideal)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

/-- The last stretch writes no argument. -/
theorem meanOps_keep (V : Valuation τ sig (Elt Ideal)) :
    ∀ r ∈ argRefs, after (meanOps (F := Ideal)) V (Proc.devRef .tc r) = V (Proc.devRef .tc r) := by
  intro r hr
  simp only [argRefs, List.mem_cons, List.not_mem_nil, or_false] at hr
  rcases hr with rfl | rfl | rfl | rfl | rfl | rfl | rfl <;> after_results_simp

/-! ## The whole line -/

section Whole

variable {F : FTy → Type} [FloatOps F]

/-- The reference's 76 operations, in the program's order: the six stretches one after the other. -/
abbrev ops : List (HloOp τ sig (Elt F)) :=
  normOps ++ proj0Ops ++ edges64Ops ++ layer1Ops ++ edges16Ops ++ meanOps

set_option maxRecDepth 8192 in
set_option maxHeartbeats 4000000 in
/-- The program is this line of operations. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig := by
  refine Forall.append (Forall.append (Forall.append (Forall.append (Forall.append ?_ ?_) ?_) ?_) ?_) ?_ <;>
    simp only [List.Forall, nullary_bufs_sub, unary_bufs_sub, binary_bufs_sub, ternary_bufs_sub, and_self]

/-- No operation of the line allocates a buffer. -/
theorem ops_fresh : (ops : List (HloOp τ sig (Elt F))).Forall fun op => op.fresh = ∅ := by
  refine Forall.append (Forall.append (Forall.append (Forall.append (Forall.append ?_ ?_) ?_) ?_) ?_) ?_
  · all_fresh normOps
  · all_fresh proj0Ops
  · all_fresh edges64Ops
  · all_fresh layer1Ops
  · all_fresh edges16Ops
  · all_fresh meanOps

end Whole

/-- The contents after the whole line are the contents after the six stretches, each started from what the one
    before left. -/
theorem after_ops (V : Valuation τ sig (Elt Ideal)) :
    after (ops (F := Ideal)) V
      = after meanOps (after edges16Ops (after layer1Ops (after edges64Ops (after proj0Ops (after normOps V))))) := by
  simp only [ops, after_append]

/-- From any contents, the line leaves in the result buffer the reference's result of the argument buffers: the
    stages chained, each read from what the stretches before it left. -/
theorem ops_result (V : Valuation τ sig (Elt Ideal)) :
    after (ops (F := Ideal)) V (Proc.devRef .tc main_v58)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [after_ops, meanOps_val,
    edges16Ops_val, edges16Ops_keep _ main_v14 (by decide), edges16Ops_keep _ main_arg6 (by decide),
    layer1Ops_val, layer1Ops_keep _ main_v14 (by decide), layer1Ops_keep _ main_arg1 (by decide),
    layer1Ops_keep _ main_arg2 (by decide), layer1Ops_keep _ main_arg6 (by decide),
    edges64Ops_val, edges64Ops_keep _ main_v14 (by decide), edges64Ops_keep _ main_v10 (by decide),
    edges64Ops_keep _ main_arg1 (by decide), edges64Ops_keep _ main_arg2 (by decide),
    edges64Ops_keep _ main_arg4 (by decide), edges64Ops_keep _ main_arg5 (by decide),
    edges64Ops_keep _ main_arg6 (by decide),
    proj0Ops_val, proj0Ops_keep _ main_v14 (by decide), proj0Ops_keep _ main_v10 (by decide),
    proj0Ops_keep _ main_arg1 (by decide), proj0Ops_keep _ main_arg2 (by decide),
    proj0Ops_keep _ main_arg4 (by decide), proj0Ops_keep _ main_arg5 (by decide),
    proj0Ops_keep _ main_arg6 (by decide),
    normOps_src, normOps_dst, normOps_keep _ main_arg0 (by decide), normOps_keep _ main_arg1 (by decide),
    normOps_keep _ main_arg2 (by decide), normOps_keep _ main_arg3 (by decide),
    normOps_keep _ main_arg4 (by decide), normOps_keep _ main_arg5 (by decide),
    normOps_keep _ main_arg6 (by decide)]
  rfl

/-- From any contents, the line leaves every argument buffer as it was. -/
theorem ops_keep (V : Valuation τ sig (Elt Ideal)) :
    ∀ r ∈ argRefs, after (ops (F := Ideal)) V (Proc.devRef .tc r) = V (Proc.devRef .tc r) := by
  intro r hr
  rw [after_ops, meanOps_keep _ r hr, edges16Ops_keep _ r (List.mem_cons_of_mem _ hr),
    layer1Ops_keep _ r (List.mem_cons_of_mem _ hr),
    edges64Ops_keep _ r (List.mem_cons_of_mem _ (List.mem_cons_of_mem _ hr)),
    proj0Ops_keep _ r (List.mem_cons_of_mem _ (List.mem_cons_of_mem _ hr)), normOps_keep _ r hr]

/-! ## The run -/

/-- On every device, from any memory with zero counters: every weakly fair execution of the reference terminates with
    its result buffer at `result` of the arguments' contents at launch, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v58).trans (ops_result (launchContents m c)),
        (h c main_arg0).trans (ops_keep (launchContents m c) main_arg0 (by decide)),
        (h c main_arg1).trans (ops_keep (launchContents m c) main_arg1 (by decide)),
        (h c main_arg2).trans (ops_keep (launchContents m c) main_arg2 (by decide)),
        (h c main_arg3).trans (ops_keep (launchContents m c) main_arg3 (by decide)),
        (h c main_arg4).trans (ops_keep (launchContents m c) main_arg4 (by decide)),
        (h c main_arg5).trans (ops_keep (launchContents m c) main_arg5 (by decide)),
        (h c main_arg6).trans (ops_keep (launchContents m c) main_arg6 (by decide))⟩)
    (run_seq scopedRefs_eq scopedSems_eq defs main (fun _ => ops) main_eq (fun _ => ops_sub) m ρ
      (fresh_of_forall_dev fun _ => ops_fresh))

end Cert.RefSide

end
-- ==== Proof.HostStages.lean ====
/-
  The dense stages as the HOST spells them are the formulas of the specification.

  A vector laid as a column (`[R] → [R, 1]`) holds entry `r` at `(r, 0)`, whether by a reshape or by a broadcast along
  a new unit axis; spread over `C` columns it holds that entry all along row `r`. A vector laid as a row (`[C] → [1, C]`)
  and spread over `R` rows holds entry `k` all along column `k`. So "multiply by the spread column" is `scaleRows`,
  "add the spread row" is `addRow`, and the host's three dense stages — a product of the scaled features, a product of
  the scaled rectified closed layer, the column sums of the closed layer divided by the number of rows — are `proj0`,
  `proj1` and `pool`. The host's sum starts from the zero word (`0 + x = x`), and dividing by the real `100000` is
  multiplying by its reciprocal at every extended real, the infinities included; nothing here assumes finiteness.
-/
import proofs.«143258_j58411555225950_1_alg».proof.Proof.Spec
import proofs.«143258_j58411555225950_1_alg».proof.Proof.LibMatProd
import proofs.«143258_j58411555225950_1_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.GraphConv

open Idealize.ShloMosaic Idealize.ShloMosaic.ValueIdx Cert.Linear

/-! ## Columns and rows, in both spellings -/

/-- A vector broadcast along a new unit axis to a column is the column. -/
theorem colHost {R : Nat} (n : (Vc R).Idx → EReal) (h1 : (Vc R).BroadcastsInDim (Mat R 1) ![0]) :
    broadcastInDim (Mat R 1) ![0] h1 n = col n := by
  funext p
  obtain ⟨r, u, rfl⟩ : ∃ (r : Fin R) (u : Fin 1), p = ix2 r u := ⟨p 0, p 1, eq_ix2 p⟩
  have hr : r.val < R := r.isLt
  exact broadcastInDim_apply _ h1 n (ix2 r u) (ix1 r) (fun ax => by
    match ax with
    | ⟨0, _⟩ => show r.val = if R = 1 then 0 else r.val; split <;> omega)

/-- A vector reshaped to a column is the column. -/
theorem colCast {R : Nat} (n : (Vc R).Idx → EReal) (h : (Vc R).ShapeCasts (Mat R 1)) :
    shapeCast (Mat R 1) n h = col n := by
  funext p
  obtain ⟨r, u, rfl⟩ : ∃ (r : Fin R) (u : Fin 1), p = ix2 r u := ⟨p 0, p 1, eq_ix2 p⟩
  exact Cert.LibKeepdims.shapeCast_a_a1_apply n h r u

/-- A column spread over `C` columns holds, all along row `r`, its entry `(r, 0)`. -/
theorem spreadCol {R C : Nat} (v : (Mat R 1).Idx → EReal) (h2 : (Mat R 1).BroadcastsInDim (Mat R C) ![0, 1]) :
    broadcastInDim (Mat R C) ![0, 1] h2 v = fun p => v (ix2 (p 0) (0 : Fin 1)) := by
  funext p
  obtain ⟨r, k, rfl⟩ : ∃ (r : Fin R) (k : Fin C), p = ix2 r k := ⟨p 0, p 1, eq_ix2 p⟩
  have hr : r.val < R := r.isLt
  exact broadcastInDim_apply _ h2 v (ix2 r k) (ix2 r (0 : Fin 1)) (fun ax => by
    match ax with
    | ⟨0, _⟩ => show r.val = if R = 1 then 0 else r.val; split <;> omega
    | ⟨1, _⟩ => show (0 : Nat) = if (1 : Nat) = 1 then 0 else k.val; rfl)

/-- A vector broadcast along a new leading unit axis to a row is the row. -/
theorem rowHost {C : Nat} (b : (Vc C).Idx → EReal) (h1 : (Vc C).BroadcastsInDim (Mat 1 C) ![1]) :
    broadcastInDim (Mat 1 C) ![1] h1 b = row b := by
  funext p
  obtain ⟨u, k, rfl⟩ : ∃ (u : Fin 1) (k : Fin C), p = ix2 u k := ⟨p 0, p 1, eq_ix2 p⟩
  have hk : k.val < C := k.isLt
  exact broadcastInDim_apply _ h1 b (ix2 u k) (ix1 k) (fun ax => by
    match ax with
    | ⟨0, _⟩ => show k.val = if C = 1 then 0 else k.val; split <;> omega)

/-- A vector reshaped to a row is the row. -/
theorem rowCast {C : Nat} (b : (Vc C).Idx → EReal) (h : (Vc C).ShapeCasts (Mat 1 C)) :
    shapeCast (Mat 1 C) b h = row b := by
  funext p
  obtain ⟨u, k, rfl⟩ : ∃ (u : Fin 1) (k : Fin C), p = ix2 u k := ⟨p 0, p 1, eq_ix2 p⟩
  exact shapeCast_a_1a_apply b h u k

/-- A row spread over `R` rows holds, all along column `k`, its entry `(0, k)`. -/
theorem spreadRow {R C : Nat} (v : (Mat 1 C).Idx → EReal) (h2 : (Mat 1 C).BroadcastsInDim (Mat R C) ![0, 1]) :
    broadcastInDim (Mat R C) ![0, 1] h2 v = fun p => v (ix2 (0 : Fin 1) (p 1)) := by
  funext p
  obtain ⟨r, k, rfl⟩ : ∃ (r : Fin R) (k : Fin C), p = ix2 r k := ⟨p 0, p 1, eq_ix2 p⟩
  have hk : k.val < C := k.isLt
  exact broadcastInDim_apply _ h2 v (ix2 r k) (ix2 (0 : Fin 1) k) (fun ax => by
    match ax with
    | ⟨0, _⟩ => show (0 : Nat) = if (1 : Nat) = 1 then 0 else r.val; rfl
    | ⟨1, _⟩ => show k.val = if C = 1 then 0 else k.val; split <;> omega)

/-- A one-row array reshaped to a vector is its row. -/
theorem vecCast {C : Nat} (x : (Mat 1 C).Idx → EReal) (h : (Mat 1 C).ShapeCasts (Vc C)) :
    shapeCast (Vc C) x h = vecOfRow x := by
  funext j
  obtain ⟨k, rfl⟩ : ∃ k : Fin C, j = ix1 k := ⟨j 0, eq_ix1 j⟩
  exact shapeCast_1a_a_apply x h k

/-! ## The host's stages -/

/-- Multiplying by the spread column of a vector scales the rows. -/
theorem scaleRows_host {R C : Nat} (X : FVec Ideal (Mat R C) .f32) (n : FVec Ideal (Vc R) .f32)
    (h1 : (Vc R).BroadcastsInDim (Mat R 1) ![0]) (h2 : (Mat R 1).BroadcastsInDim (Mat R C) ![0, 1]) :
    mulf X (broadcastInDim (Mat R C) ![0, 1] h2 (broadcastInDim (Mat R 1) ![0] h1 n)) = scaleRows X (col n) := by
  rw [colHost, spreadCol]; rfl

/-- Scaling the rows and adding the spread row of a vector closes the layer. -/
theorem closeLayer_host {R C : Nat} (A : FVec Ideal (Mat R C) .f32) (n : FVec Ideal (Vc R) .f32) (b : FVec Ideal (Vc C) .f32)
    (h1 : (Vc R).BroadcastsInDim (Mat R 1) ![0]) (h2 : (Mat R 1).BroadcastsInDim (Mat R C) ![0, 1])
    (h3 : (Vc C).BroadcastsInDim (Mat 1 C) ![1]) (h4 : (Mat 1 C).BroadcastsInDim (Mat R C) ![0, 1]) :
    addf (mulf A (broadcastInDim (Mat R C) ![0, 1] h2 (broadcastInDim (Mat R 1) ![0] h1 n)))
        (broadcastInDim (Mat R C) ![0, 1] h4 (broadcastInDim (Mat 1 C) ![1] h3 b))
      = closeLayer A (col n) (row b) := by
  rw [scaleRows_host, rowHost, spreadRow]; rfl

/-- The larger of an array and the spread zero word is the rectifier. -/
theorem relu_host {R C : Nat} (Y : FVec Ideal (Mat R C) .f32) (h0 : (⟨0, ![]⟩ : Shape).BroadcastsInDim (Mat R C) ![]) :
    maximumf Y (broadcastInDim (Mat R C) ![] h0 (constant (F := Ideal) ⟨0, ![]⟩ .f32 0x00000000#32)) = relu Y := rfl

/-- The first layer's projection as the host computes it. -/
theorem stage0_host {R K D : Nat} {d : DotDims (Mat R K) (Mat K D) (Mat R D)} (hd : Contracts d)
    (X : FVec Ideal (Mat R K) .f32) (n : FVec Ideal (Vc R) .f32) (W : FVec Ideal (Mat K D) .f32)
    (h1 : (Vc R).BroadcastsInDim (Mat R 1) ![0]) (h2 : (Mat R 1).BroadcastsInDim (Mat R K) ![0, 1]) :
    Host.dotGeneral d none (mulf X (broadcastInDim (Mat R K) ![0, 1] h2 (broadcastInDim (Mat R 1) ![0] h1 n))) W
      = proj0 X (col n) W := by
  rw [scaleRows_host]; exact dotGeneral_eq hd none _ _ _

/-- The rectifier and the second layer's projection as the host computes them. -/
theorem stage1_host {R K D : Nat} {d : DotDims (Mat R K) (Mat K D) (Mat R D)} (hd : Contracts d)
    (A : FVec Ideal (Mat R K) .f32) (nIn nOut : FVec Ideal (Vc R) .f32) (b : FVec Ideal (Vc K) .f32) (W : FVec Ideal (Mat K D) .f32)
    (h1 : (Vc R).BroadcastsInDim (Mat R 1) ![0]) (h2 : (Mat R 1).BroadcastsInDim (Mat R K) ![0, 1])
    (h3 : (Vc K).BroadcastsInDim (Mat 1 K) ![1]) (h4 : (Mat 1 K).BroadcastsInDim (Mat R K) ![0, 1])
    (h0 : (⟨0, ![]⟩ : Shape).BroadcastsInDim (Mat R K) ![]) :
    Host.dotGeneral d none
        (mulf
          (maximumf
            (addf (mulf A (broadcastInDim (Mat R K) ![0, 1] h2 (broadcastInDim (Mat R 1) ![0] h1 nIn)))
              (broadcastInDim (Mat R K) ![0, 1] h4 (broadcastInDim (Mat 1 K) ![1] h3 b)))
            (broadcastInDim (Mat R K) ![] h0 (constant (F := Ideal) ⟨0, ![]⟩ .f32 0x00000000#32)))
          (broadcastInDim (Mat R K) ![0, 1] h2 (broadcastInDim (Mat R 1) ![0] h1 nOut))) W
      = proj1 A (col nIn) (col nOut) (row b) W := by
  rw [closeLayer_host, relu_host, scaleRows_host]; exact dotGeneral_eq hd none _ _ _

/-- The host's sum of an `a × b` array along its first axis, from an initial value: at column `c` the initial value
    plus the sum over the rows of the entries of that column. -/
theorem hostReduceAdd_cols {a b : Nat} (h' : (Mat a b).ReducesTo [0] (Vc b)) (h : (Mat a b).Reduces [0] (Vc b))
    (x : (Mat a b).Idx → EReal) (init : EReal) (c : Fin b) :
    Ideal.hostReduceAdd h' x init (ix1 c) = init + ∑ r : Fin a, x (ix2 r c) := by
  refine (Ideal.hostReduceAdd_single h' h x init (ix1 c)).trans (congrArg (init + ·) ?_)
  refine Finset.sum_congr rfl fun r _ => congrArg x (funext fun ax => Fin.ext ?_)
  rw [h.lift_val]
  unfold Shape.Reduces.liftVal
  match ax with
  | ⟨0, _⟩ => rfl
  | ⟨1, _⟩ => rfl

/-- The float word of the divisor denotes the real `100000`. -/
theorem word_100000 : Ideal.ofBits .f32 0x47C35000#32 = ((100000 : ℝ) : EReal) := by
  simp [Ideal.ofBits, Ideal.ieee, -EReal.coe_mul]; norm_num

/-- The mean over the rows as the host computes it: the column sums from the zero word, divided by `100000`. -/
theorem stage2_host {R C : Nat} (A : FVec Ideal (Mat R C) .f32) (nIn : FVec Ideal (Vc R) .f32) (b : FVec Ideal (Vc C) .f32)
    (h1 : (Vc R).BroadcastsInDim (Mat R 1) ![0]) (h2 : (Mat R 1).BroadcastsInDim (Mat R C) ![0, 1])
    (h3 : (Vc C).BroadcastsInDim (Mat 1 C) ![1]) (h4 : (Mat 1 C).BroadcastsInDim (Mat R C) ![0, 1])
    (hred' : (Mat R C).ReducesTo [0] (Vc C)) (hred : (Mat R C).Reduces [0] (Vc C))
    (hu : 0 < (⟨0, ![]⟩ : Shape).numel) (h0 : (⟨0, ![]⟩ : Shape).BroadcastsInDim (Vc C) ![]) :
    Host.divf
        (Host.reduceAdd
          (addf (mulf A (broadcastInDim (Mat R C) ![0, 1] h2 (broadcastInDim (Mat R 1) ![0] h1 nIn)))
            (broadcastInDim (Mat R C) ![0, 1] h4 (broadcastInDim (Mat 1 C) ![1] h3 b)))
          (constant (F := Ideal) ⟨0, ![]⟩ .f32 0x00000000#32) hred' hu)
        (broadcastInDim (Vc C) ![] h0 (constant (F := Ideal) ⟨0, ![]⟩ .f32 0x47C35000#32))
      = vecOfRow (pool (((1 / 100000 : ℝ) : EReal)) A (col nIn) (row b)) := by
  rw [closeLayer_host]
  funext j
  obtain ⟨k, rfl⟩ : ∃ k : Fin C, j = ix1 k := ⟨j 0, eq_ix1 j⟩
  show Ideal.div (Ideal.hostReduceAdd hred' (closeLayer A (col nIn) (row b)) (Ideal.ofBits .f32 0x00000000#32) (ix1 k))
      (Ideal.ofBits .f32 0x47C35000#32) = _
  rw [hostReduceAdd_cols hred' hred, Ideal.ofBits_zero_f32, zero_add, word_100000,
    Ideal.div_coe (by norm_num : (100000 : ℝ) ≠ 0)]
  rfl

end Cert.GraphConv

end
-- ==== Proof.Bridge.lean ====
/-
  The two programs compute one function.

  Both apply the same host operations for the degree norms and for the sums along the edges (each program carries its
  own copy of the operations' dimension records; the copies are equal field by field). Between those, the reference's
  dense stages are the specification's formulas (the host-stage lemmas), which are what the kernel's regions leave; a
  vector laid as a column, a row, or read back from a one-row array is the same array whether a reshape or a broadcast
  lays it. So the reference's result and the kernel's are equal as functions of the arguments — for all extended-real
  inputs, with no finiteness assumption.
-/
import proofs.«143258_j58411555225950_1_alg».proof.Proof.KerResult
import proofs.«143258_j58411555225950_1_alg».proof.Proof.RefTerm
import proofs.«143258_j58411555225950_1_alg».proof.Proof.HostStages
import proofs.«143258_j58411555225950_1_alg».proof.Proof.DenseParts

noncomputable section

namespace Cert.Bridge

open Idealize.ShloMosaic Cert.GraphConv Cert.Linear

/-- The reference's first product contracts the features' columns with the weights' rows. -/
theorem contracts0 : Contracts Cert.ReferenceIdeal.dot_S100000x128_S128x64_S100000x64_1_0_0_1_n_n :=
  contracts_of_lists _ rfl rfl rfl rfl rfl rfl

/-- So does its second product. -/
theorem contracts1 : Contracts Cert.ReferenceIdeal.dot_S100000x64_S64x16_S100000x16_1_0_0_1_n_n :=
  contracts_of_lists _ rfl rfl rfl rfl rfl rfl

/-! ## The shared host chain: one function in both programs -/

theorem degNorm_eq (idx : IVec ⟨1, ![1600000]⟩ 32) : Cert.RefSide.degNorm idx = Cert.KerSide.degNorm idx := rfl

theorem sumEdges64_eq (P : FVec Ideal (Mat 100000 64) .f32) (src dst : IVec ⟨1, ![1600000]⟩ 32) :
    Cert.RefSide.sumEdges64 P src dst = Cert.KerSide.sumEdges64 P src dst := rfl

theorem sumEdges16_eq (P : FVec Ideal (Mat 100000 16) .f32) (src dst : IVec ⟨1, ![1600000]⟩ 32) :
    Cert.RefSide.sumEdges16 P src dst = Cert.KerSide.sumEdges16 P src dst := rfl

/-! ## The reference's dense stages are the specification's formulas -/

section
open Cert.ReferenceIdeal Cert.ReferenceIdeal.Gen

theorem stage0_eq (x : FVec Ideal (Mat 100000 128) .f32) (nOut : FVec Ideal (Vc 100000) .f32) (w : FVec Ideal (Mat 128 64) .f32) :
    Cert.RefSide.stage0 x nOut w = proj0 x (col nOut) w :=
  stage0_host contracts0 x nOut w bcast_S100000_S100000x1_0 bcast_S100000x1_S100000x128_0_1

theorem stage1_eq (a : FVec Ideal (Mat 100000 64) .f32) (nIn nOut : FVec Ideal (Vc 100000) .f32) (b : FVec Ideal (Vc 64) .f32)
    (w : FVec Ideal (Mat 64 16) .f32) :
    Cert.RefSide.stage1 a nIn nOut b w = proj1 a (col nIn) (col nOut) (row b) w :=
  stage1_host contracts1 a nIn nOut b w bcast_S100000_S100000x1_0 bcast_S100000x1_S100000x64_0_1 bcast_S64_S1x64_1
    bcast_S1x64_S100000x64_0_1 bcast_S_S100000x64

theorem stage2_eq (a : FVec Ideal (Mat 100000 16) .f32) (nIn : FVec Ideal (Vc 100000) .f32) (b : FVec Ideal (Vc 16) .f32) :
    Cert.RefSide.stage2 a nIn b = vecOfRow (pool (((1 / 100000 : ℝ) : EReal)) a (col nIn) (row b)) :=
  stage2_host a nIn b bcast_S100000_S100000x1_0 bcast_S100000x1_S100000x16_0_1 bcast_S16_S1x16_1 bcast_S1x16_S100000x16_0_1
    reducesTo_S100000x16_S16_d0 (by decide) h_S_ bcast_S_S16

end

/-! ## The results -/

/-- The reference's result is the kernel's, as functions of the seven arguments. -/
theorem result_eq (x : FVec Ideal (Mat 100000 128) .f32) (src dst : IVec ⟨1, ![1600000]⟩ 32) (w1 : FVec Ideal (Mat 128 64) .f32)
    (b1 : FVec Ideal (Vc 64) .f32) (w2 : FVec Ideal (Mat 64 16) .f32) (b2 : FVec Ideal (Vc 16) .f32) :
    Cert.RefSide.result x src dst w1 b1 w2 b2 = Cert.KerSide.result x src dst w1 b1 w2 b2 := by
  unfold Cert.RefSide.result Cert.KerSide.result
  rw [stage2_eq, stage1_eq, stage0_eq, sumEdges16_eq, sumEdges64_eq, degNorm_eq, degNorm_eq,
    vecCast, colCast, colCast, rowCast, rowCast]

end Cert.Bridge

end
-- ==== Proof.lean ====
/-
  The certificate of a two-layer graph convolution with mean pooling: a kernel program of three tiled regions among
  host gathers and scatters, against its plain reference.

  Both programs compute, from node features, an edge list and two layers' weights and biases: the degree norms; for
  each layer, the features scaled by the source norm, projected, summed along the edges, scaled by the target norm and
  shifted by the bias, with a rectifier between the layers; and the mean of the result over the 100000 nodes. The
  kernel forms the dense parts block by block — 2000 rows at a time on a matrix unit, and the mean as fifty partial
  column sums accumulated in place and scaled once at the end by a constant the certificate names as the rational
  1/100000 — where the reference forms whole products and one whole sum divided by 100000. On the extended reals the
  two arrangements agree entry by entry: a product's rows are the products of the left operand's rows, a sum over
  100000 rows is the sum of fifty runs of 2000, and dividing by 100000 is multiplying by its reciprocal at every
  extended real. No step needs the inputs to be finite.

  The three frames: the kernel's two are the generated frame proofs; the reference's is its run with the result
  dropped. `preserves` is the named constant's statement. `algebraic` puts the kernel's run (its result read back
  through the boundary contents to a formula of the arguments) beside the reference's run (its result the composition
  of its host operations), on memories that agree on the arguments, and identifies the two formulas.
-/
import proofs.«143258_j58411555225950_1_alg».proof.Defs
import proofs.«143258_j58411555225950_1_alg».proof.Proof.Gen.Kernel
import proofs.«143258_j58411555225950_1_alg».proof.Proof.Gen.Kernel.Frame
import proofs.«143258_j58411555225950_1_alg».proof.Proof.Gen.KernelIdeal
import proofs.«143258_j58411555225950_1_alg».proof.Proof.Gen.KernelIdeal.Frame
import proofs.«143258_j58411555225950_1_alg».proof.Proof.Gen.ReferenceIdeal
import proofs.«143258_j58411555225950_1_alg».proof.Proof.Gen.Pre_finite_inputs
import proofs.«143258_j58411555225950_1_alg».proof.Proof.KernelRun
import proofs.«143258_j58411555225950_1_alg».proof.Proof.KernelValue
import proofs.«143258_j58411555225950_1_alg».proof.Proof.RefRun
import proofs.«143258_j58411555225950_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.RefSide.run m ρ)

/-- The one rewrite of the idealization: the pooling scale, a float word, is named the rational 1/100000. -/
theorem preserves : Cert.preserves_Kernel_KernelIdeal :=
  IdealRules.named_const.statement Cert.KernelIdeal.κ "inv_100000" .f32 0x3727C5AC#32 ((1 / 100000 : ℝ) : EReal) rfl

/-- From memories that agree on the seven arguments both programs end with the same sixteen pooled values. -/
theorem algebraic : Cert.algebraic_KernelIdeal_ReferenceIdeal := by
  intro m ρ m' ρ' _ hagree
  refine ⟨fun c => Cert.KerSide.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Gen.W7_v42 m ρ c), (h c).2⟩)
      (Cert.KernelIdeal.Gen.run_named m ρ)
  · refine (θ_run Cert.ReferenceIdeal.defs _ _).mono (fun _ h c => ⟨(h c).1.trans ?_, (h c).2⟩)
      (Cert.RefSide.run m' ρ')
    rw [(hagree c).1, (hagree c).2.1, (hagree c).2.2.1, (hagree c).2.2.2.1, (hagree c).2.2.2.2.1,
      (hagree c).2.2.2.2.2.1, (hagree c).2.2.2.2.2.2]
    exact Cert.Bridge.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
